-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S6 : Shape := ⟨1, ![6]⟩
abbrev S6x8 : Shape := ⟨2, ![6, 8]⟩
abbrev S600x8 : Shape := ⟨2, ![600, 8]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S6 : S_.BroadcastsInDim S6 (![] : Fin 0 → Fin S6.rank)
  reducesTo_S6_S_d0 : S6.ReducesTo [0] S_
  bcast_S_S6x8 : S_.BroadcastsInDim S6x8 (![] : Fin 0 → Fin S6x8.rank)
  reducesTo_S6x8_S_d0_1 : S6x8.ReducesTo [0, 1] S_
  bcast_S_S600x8 : S_.BroadcastsInDim S600x8 (![] : Fin 0 → Fin S600x8.rank)
  reducesTo_S600x8_S_d0_1 : S600x8.ReducesTo [0, 1] S_

variable [Facts]

def fn_part1 {F : FTy → Type} [FloatOps F] (main_arg4 : FVec F S600x8 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S600x8 .f32 := Host.absf main_arg4
  let main_cst_6 : FVec F S_ .f32 := constant S_ .f32 0x7F800000#32
  let main_v20 : FVec F S600x8 .f32 := broadcastInDim S600x8 ![] bcast_S_S600x8 main_cst_6
  let main_v21 : IVec S600x8 1 := cmpf .olt main_v19 main_v20
  let main_c_7 : IVec S_ 1 := constantI S_ 1 1#1
  let main_v22 : IVec S_ 1 := (fun x v => Host.reduce IntOp.andi x v reducesTo_S600x8_S_d0_1 h_S_) main_v21 main_c_7
  let main_v23 : IVec S_ 1 := andi main_v18 main_v22
  main_v23

def fn {F : FTy → Type} [FloatOps F] (main_arg0 : FVec F S100000x8 .f32) (main_arg1 : FVec F S6 .f32) (main_arg2 : FVec F S6x8 .f32) (main_arg3 : FVec F S6x8 .f32) (main_arg4 : FVec F S600x8 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S6 .f32 := Host.absf main_arg1
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  let main_v9 : FVec F S6x8 .f32 := Host.absf main_arg2
  let main_cst_2 : FVec F S_ .f32 := constant S_ .f32 0x7F800000#32
  let main_v10 : FVec F S6x8 .f32 := broadcastInDim S6x8 ![] bcast_S_S6x8 main_cst_2
  let main_v11 : IVec S6x8 1 := cmpf .olt main_v9 main_v10
  let main_c_3 : IVec S_ 1 := constantI S_ 1 1#1
  let main_v12 : IVec S_ 1 := (fun x v => Host.reduce IntOp.andi x v reducesTo_S6x8_S_d0_1 h_S_) main_v11 main_c_3
  let main_v13 : IVec S_ 1 := andi main_v8 main_v12
  let main_v14 : FVec F S6x8 .f32 := Host.absf main_arg3
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg4 main_v13 main_v16
-- ==== Kernel.lean ====
abbrev S100000x8 : Shape := ⟨2, ![100000, 8]⟩
abbrev S6 : Shape := ⟨1, ![6]⟩
abbrev S6x8 : Shape := ⟨2, ![6, 8]⟩
abbrev S600x8 : Shape := ⟨2, ![600, 8]⟩
abbrev S600 : Shape := ⟨1, ![600]⟩
abbrev S_ : Shape := ⟨0, ![]⟩
abbrev S600x1 : Shape := ⟨2, ![600, 1]⟩
abbrev S8x600 : Shape := ⟨2, ![8, 600]⟩
abbrev S1x600 : Shape := ⟨2, ![1, 600]⟩
abbrev S100000x1200 : Shape := ⟨2, ![100000, 1200]⟩
abbrev S2000x8 : Shape := ⟨2, ![2000, 8]⟩
abbrev S2000x1200 : Shape := ⟨2, ![2000, 1200]⟩
abbrev S2000x600 : Shape := ⟨2, ![2000, 600]⟩
abbrev S2000x150 : Shape := ⟨2, ![2000, 150]⟩
abbrev S2000x120 : Shape := ⟨2, ![2000, 120]⟩
abbrev S2000x100 : Shape := ⟨2, ![2000, 100]⟩
abbrev S2000x90 : Shape := ⟨2, ![2000, 90]⟩
abbrev S2000x80 : Shape := ⟨2, ![2000, 80]⟩
abbrev S2000x60 : Shape := ⟨2, ![2000, 60]⟩

abbrev nBuf : Space → Nat
  | .hbm => 35
  | .vmem => 6
  | .smem => 0
  | _ => 0

abbrev bufTy : (tb : Table) → Fin (tcTables nBuf tb) → BufTy
  | .hbm, ⟨0, _⟩ => ⟨S100000x8, .f32⟩
  | .hbm, ⟨1, _⟩ => ⟨S6, .f32⟩
  | .hbm, ⟨2, _⟩ => ⟨S6x8, .f32⟩
  | .hbm, ⟨3, _⟩ => ⟨S6x8, .f32⟩
  | .hbm, ⟨4, _⟩ => ⟨S600x8, .f32⟩
  | .hbm, ⟨5, _⟩ => ⟨S600, .i32⟩
  | .hbm, ⟨6, _⟩ => ⟨S600, .i1⟩
  | .hbm, ⟨7, _⟩ => ⟨S600, .i1⟩
  | .hbm, ⟨8, _⟩ => ⟨S6, .f32⟩
  | .hbm, ⟨9, _⟩ => ⟨S600, .i1⟩
  | .hbm, ⟨10, _⟩ => ⟨S_, .i32⟩
  | .hbm, ⟨11, _⟩ => ⟨S600, .i32⟩
  | .hbm, ⟨12, _⟩ => ⟨S600, .i32⟩
  | .hbm, ⟨13, _⟩ => ⟨S600, .i32⟩
  | .hbm, ⟨14, _⟩ => ⟨S600x1, .i32⟩
  | .hbm, ⟨15, _⟩ => ⟨S600x8, .f32⟩
  | .hbm, ⟨16, _⟩ => ⟨S_, .i32⟩
  | .hbm, ⟨17, _⟩ => ⟨S600, .i32⟩
  | .hbm, ⟨18, _⟩ => ⟨S600, .i32⟩
  | .hbm, ⟨19, _⟩ => ⟨S600, .i32⟩
  | .hbm, ⟨20, _⟩ => ⟨S600x1, .i32⟩
  | .hbm, ⟨21, _⟩ => ⟨S600x8, .f32⟩
  | .hbm, ⟨22, _⟩ => ⟨S600x8, .f32⟩
  | .hbm, ⟨23, _⟩ => ⟨S600x8, .f32⟩
  | .hbm, ⟨24, _⟩ => ⟨S8x600, .f32⟩
  | .hbm, ⟨25, _⟩ => ⟨S6, .f32⟩
  | .hbm, ⟨26, _⟩ => ⟨S6, .f32⟩
  | .hbm, ⟨27, _⟩ => ⟨S_, .i32⟩
  | .hbm, ⟨28, _⟩ => ⟨S600, .i32⟩
  | .hbm, ⟨29, _⟩ => ⟨S600, .i32⟩
  | .hbm, ⟨30, _⟩ => ⟨S600, .i32⟩
  | .hbm, ⟨31, _⟩ => ⟨S600x1, .i32⟩
  | .hbm, ⟨32, _⟩ => ⟨S600, .f32⟩
  | .hbm, ⟨33, _⟩ => ⟨S1x600, .f32⟩
  | .hbm, ⟨34, _⟩ => ⟨S100000x1200, .f32⟩
  | .local _ .vmem, ⟨0, _⟩ => ⟨S2000x8, .f32⟩
  | .local _ .vmem, ⟨1, _⟩ => ⟨S2000x8, .f32⟩
  | .local _ .vmem, ⟨2, _⟩ => ⟨S8x600, .f32⟩
  | .local _ .vmem, ⟨3, _⟩ => ⟨S1x600, .f32⟩
  | .local _ .vmem, ⟨4, _⟩ => ⟨S2000x1200, .f32⟩
  | .local _ .vmem, ⟨5, _⟩ => ⟨S2000x1200, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_c_2 : Ref sig .tc := ⟨.hbm, 9, rfl⟩
abbrev main_c_3 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S600 : S_.BroadcastsInDim S600 (![] : Fin 0 → Fin S600.rank)
  bcast_S600_S600x1_0 : S600.BroadcastsInDim S600x1 (![0] : Fin 1 → Fin S600x1.rank)
  transposes_S600x8_S8x600_1_0 : S600x8.Transposes [1, 0] S8x600
  shapeCasts_S600_S1x600 : S600.ShapeCasts S1x600
  inb_S2000x8_S2000x8_0_0 : ∀ a, (![0, 0] : Fin 2 → Nat) a + S2000x8.size a ≤ S2000x8.size a
  h_S2000x8 : 0 < S2000x8.numel
  inb_S8x600_S8x600_0_0 : ∀ a, (![0, 0] : Fin 2 → Nat) a + S8x600.size a ≤ S8x600.size a
  h_S8x600 : 0 < S8x600.numel
  shapeCasts_S8x600_S8x600 : S8x600.ShapeCasts S8x600
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S2000x600 : S1x600.Broadcasts S2000x600
  slices_S2000x600_o0_0_S2000x150 : S2000x600.Slices ![0, 0] S2000x150
  slices_S2000x600_o0_150_S2000x120 : S2000x600.Slices ![0, 150] S2000x120
  slices_S2000x600_o0_270_S2000x100 : S2000x600.Slices ![0, 270] S2000x100
  slices_S2000x600_o0_370_S2000x90 : S2000x600.Slices ![0, 370] S2000x90
  slices_S2000x600_o0_460_S2000x80 : S2000x600.Slices ![0, 460] S2000x80
  slices_S2000x600_o0_540_S2000x60 : S2000x600.Slices ![0, 540] S2000x60
  concatenates_S2000x150_S2000x150_S2000x120_S2000x120_S2000x100_S2000x100_S2000x90_S2000x90_S2000x80_S2000x80_S2000x60_S2000x60_S2000x1200_d1 : Shape.Concatenates [S2000x150, S2000x150, S2000x120, S2000x120, S2000x100, S2000x100, S2000x90, S2000x90, S2000x80, S2000x80, S2000x60, S2000x60] S2000x1200 1
  inb_S2000x1200_S2000x1200_0_0 : ∀ a, (![0, 0] : Fin 2 → Nat) a + S2000x1200.size a ≤ S2000x1200.size a
  h_S2000x1200 : 0 < S2000x1200.numel
  gather_S6x8_S600x1_S600x8_1_0_n_n_0_1_18_wf : GatherDims.WF S6x8 S600x1 S600x8 [1] [0] [] [0] [] 1 ![1, 8]
  gather_S6_S600x1_S600_n_0_n_n_0_1_1_wf : GatherDims.WF S6 S600x1 S600 [] [0] [] [0] [] 1 ![1]
  dot_S2000x8_S8x600_S2000x600_1_0_0_1_n_n_wf : DotDims.WF S2000x8 S8x600 S2000x600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S100000x8.size a
  hwx0_0 : ∀ i : grid0.Coords, EltTy.bits .f32 = 32 ∨ (Rect.block (s := S100000x8) S2000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x600.size a ≤ S8x600.size a
  hwx0_1 : ∀ i : grid0.Coords, EltTy.bits .f32 = 32 ∨ (Rect.block (s := S8x600) S8x600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x600.size a ≤ S1x600.size a
  hwx0_2 : ∀ i : grid0.Coords, EltTy.bits .f32 = 32 ∨ (Rect.block (s := S1x600) S1x600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1200.size a ≤ S100000x1200.size a
  hwx0_3 : ∀ i : grid0.Coords, EltTy.bits .f32 = 32 ∨ (Rect.block (s := S100000x1200) S2000x1200.size (cc0_transform_3 i) (hinb0_3 i)).WholeWords (EltTy.packing .f32)

variable [Facts₀]

def gather_S6x8_S600x1_S600x8_1_0_n_n_0_1_18 : GatherDims S6x8 S600x1 S600x8 where
  offsetDims := [1]
  collapsedSliceDims := [0]
  operandBatchingDims := []
  startIndicesBatchingDims := []
  startIndexMap := [0]
  indexVectorDim := 1
  sliceSizes := ![1, 8]
  wf := gather_S6x8_S600x1_S600x8_1_0_n_n_0_1_18_wf
def gather_S6_S600x1_S600_n_0_n_n_0_1_1 : GatherDims S6 S600x1 S600 where
  offsetDims := []
  collapsedSliceDims := [0]
  operandBatchingDims := []
  startIndicesBatchingDims := []
  startIndexMap := [0]
  indexVectorDim := 1
  sliceSizes := ![1]
  wf := gather_S6_S600x1_S600_n_0_n_n_0_1_1_wf
def dot_S2000x8_S8x600_S2000x600_1_0_0_1_n_n : DotDims S2000x8 S8x600 S2000x600 where
  lhsContracting := [1]
  rhsContracting := [0]
  lhsNonContracting := [0]
  rhsNonContracting := [1]
  lhsBatch := []
  rhsBatch := []
  wf := dot_S2000x8_S8x600_S2000x600_1_0_0_1_n_n_wf

abbrev win0_0 : Pipeline.Window sig grid0 :=
  Pipeline.Window.ofSpec (Memref.whole main_arg0) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x1200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x8 : Shape := ⟨2, ![100000, 8]⟩
abbrev S6 : Shape := ⟨1, ![6]⟩
abbrev S6x8 : Shape := ⟨2, ![6, 8]⟩
abbrev S600x8 : Shape := ⟨2, ![600, 8]⟩
abbrev S600 : Shape := ⟨1, ![600]⟩
abbrev S_ : Shape := ⟨0, ![]⟩
abbrev S600x1 : Shape := ⟨2, ![600, 1]⟩
abbrev S8x600 : Shape := ⟨2, ![8, 600]⟩
abbrev S100000x600 : Shape := ⟨2, ![100000, 600]⟩
abbrev S1 : Shape := ⟨1, ![1]⟩
abbrev S100000x150 : Shape := ⟨2, ![100000, 150]⟩
abbrev S100000x120 : Shape := ⟨2, ![100000, 120]⟩
abbrev S100000x100 : Shape := ⟨2, ![100000, 100]⟩
abbrev S100000x90 : Shape := ⟨2, ![100000, 90]⟩
abbrev S100000x80 : Shape := ⟨2, ![100000, 80]⟩
abbrev S100000x60 : Shape := ⟨2, ![100000, 60]⟩
abbrev S100000x1200 : Shape := ⟨2, ![100000, 1200]⟩

abbrev nBuf : Space → Nat
  | .hbm => 96
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S6, .f32⟩
  | .hbm, ⟨2, _⟩ => ⟨S6x8, .f32⟩
  | .hbm, ⟨3, _⟩ => ⟨S6x8, .f32⟩
  | .hbm, ⟨4, _⟩ => ⟨S600x8, .f32⟩
  | .hbm, ⟨5, _⟩ => ⟨S600, .i32⟩
  | .hbm, ⟨6, _⟩ => ⟨S600, .i1⟩
  | .hbm, ⟨7, _⟩ => ⟨S600, .i1⟩
  | .hbm, ⟨8, _⟩ => ⟨S_, .i32⟩
  | .hbm, ⟨9, _⟩ => ⟨S600, .i32⟩
  | .hbm, ⟨10, _⟩ => ⟨S600, .i32⟩
  | .hbm, ⟨11, _⟩ => ⟨S600, .i32⟩
  | .hbm, ⟨12, _⟩ => ⟨S600x1, .i32⟩
  | .hbm, ⟨13, _⟩ => ⟨S600x8, .f32⟩
  | .hbm, ⟨14, _⟩ => ⟨S_, .i32⟩
  | .hbm, ⟨15, _⟩ => ⟨S600, .i32⟩
  | .hbm, ⟨16, _⟩ => ⟨S600, .i32⟩
  | .hbm, ⟨17, _⟩ => ⟨S600, .i32⟩
  | .hbm, ⟨18, _⟩ => ⟨S600x1, .i32⟩
  | .hbm, ⟨19, _⟩ => ⟨S600x8, .f32⟩
  | .hbm, ⟨20, _⟩ => ⟨S600x8, .f32⟩
  | .hbm, ⟨21, _⟩ => ⟨S600x8, .f32⟩
  | .hbm, ⟨22, _⟩ => ⟨S8x600, .f32⟩
  | .hbm, ⟨23, _⟩ => ⟨S100000x600, .f32⟩
  | .hbm, ⟨24, _⟩ => ⟨S_, .f32⟩
  | .hbm, ⟨25, _⟩ => ⟨S100000x600, .f32⟩
  | .hbm, ⟨26, _⟩ => ⟨S100000x600, .f32⟩
  | .hbm, ⟨27, _⟩ => ⟨S100000x600, .f32⟩
  | .hbm, ⟨28, _⟩ => ⟨S100000x600, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S100000x150, .f32⟩
  | .hbm, ⟨35, _⟩ => ⟨S100000x150, .f32⟩
  | .hbm, ⟨36, _⟩ => ⟨S100000x150, .f32⟩
  | .hbm, ⟨37, _⟩ => ⟨S100000x150, .f32⟩
  | .hbm, ⟨38, _⟩ => ⟨S100000x150, .f32⟩
  | .hbm, ⟨39, _⟩ => ⟨S100000x150, .f32⟩
  | .hbm, ⟨40, _⟩ => ⟨S1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S100000x120, .f32⟩
  | .hbm, ⟨46, _⟩ => ⟨S100000x120, .f32⟩
  | .hbm, ⟨47, _⟩ => ⟨S100000x120, .f32⟩
  | .hbm, ⟨48, _⟩ => ⟨S100000x120, .f32⟩
  | .hbm, ⟨49, _⟩ => ⟨S100000x120, .f32⟩
  | .hbm, ⟨50, _⟩ => ⟨S100000x120, .f32⟩
  | .hbm, ⟨51, _⟩ => ⟨S1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S100000x100, .f32⟩
  | .hbm, ⟨57, _⟩ => ⟨S100000x100, .f32⟩
  | .hbm, ⟨58, _⟩ => ⟨S100000x100, .f32⟩
  | .hbm, ⟨59, _⟩ => ⟨S100000x100, .f32⟩
  | .hbm, ⟨60, _⟩ => ⟨S100000x100, .f32⟩
  | .hbm, ⟨61, _⟩ => ⟨S100000x100, .f32⟩
  | .hbm, ⟨62, _⟩ => ⟨S1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S100000x90, .f32⟩
  | .hbm, ⟨68, _⟩ => ⟨S100000x90, .f32⟩
  | .hbm, ⟨69, _⟩ => ⟨S100000x90, .f32⟩
  | .hbm, ⟨70, _⟩ => ⟨S100000x90, .f32⟩
  | .hbm, ⟨71, _⟩ => ⟨S100000x90, .f32⟩
  | .hbm, ⟨72, _⟩ => ⟨S100000x90, .f32⟩
  | .hbm, ⟨73, _⟩ => ⟨S1, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S100000x80, .f32⟩
  | .hbm, ⟨79, _⟩ => ⟨S100000x80, .f32⟩
  | .hbm, ⟨80, _⟩ => ⟨S100000x80, .f32⟩
  | .hbm, ⟨81, _⟩ => ⟨S100000x80, .f32⟩
  | .hbm, ⟨82, _⟩ => ⟨S100000x80, .f32⟩
  | .hbm, ⟨83, _⟩ => ⟨S100000x80, .f32⟩
  | .hbm, ⟨84, _⟩ => ⟨S1, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S100000x60, .f32⟩
  | .hbm, ⟨90, _⟩ => ⟨S100000x60, .f32⟩
  | .hbm, ⟨91, _⟩ => ⟨S100000x60, .f32⟩
  | .hbm, ⟨92, _⟩ => ⟨S100000x60, .f32⟩
  | .hbm, ⟨93, _⟩ => ⟨S100000x60, .f32⟩
  | .hbm, ⟨94, _⟩ => ⟨S100000x60, .f32⟩
  | .hbm, ⟨95, _⟩ => ⟨S100000x1200, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩

abbrev nD : Nat := 1
abbrev τ : Topo := Topo.v7x

variable {F : FTy → Type} [FloatOps F]

class Facts₀ : Prop where
  bcast_S_S600 : S_.BroadcastsInDim S600 (![] : Fin 0 → Fin S600.rank)
  bcast_S600_S600x1_0 : S600.BroadcastsInDim S600x1 (![0] : Fin 1 → Fin S600x1.rank)
  transposes_S600x8_S8x600_1_0 : S600x8.Transposes [1, 0] S8x600
  bcast_S_S100000x600 : S_.BroadcastsInDim S100000x600 (![] : Fin 0 → Fin S100000x600.rank)
  slices_S6_S1_0 : S6.Slices ![0] S1
  shapeCasts_S1_S_ : S1.ShapeCasts S_
  slices_S100000x600_S100000x150_0_0 : S100000x600.Slices ![0, 0] S100000x150
  bcast_S_S100000x150 : S_.BroadcastsInDim S100000x150 (![] : Fin 0 → Fin S100000x150.rank)
  slices_S6_S1_1 : S6.Slices ![1] S1
  slices_S100000x600_S100000x120_0_150 : S100000x600.Slices ![0, 150] S100000x120
  bcast_S_S100000x120 : S_.BroadcastsInDim S100000x120 (![] : Fin 0 → Fin S100000x120.rank)
  slices_S6_S1_2 : S6.Slices ![2] S1
  slices_S100000x600_S100000x100_0_270 : S100000x600.Slices ![0, 270] S100000x100
  bcast_S_S100000x100 : S_.BroadcastsInDim S100000x100 (![] : Fin 0 → Fin S100000x100.rank)
  slices_S6_S1_3 : S6.Slices ![3] S1
  slices_S100000x600_S100000x90_0_370 : S100000x600.Slices ![0, 370] S100000x90
  bcast_S_S100000x90 : S_.BroadcastsInDim S100000x90 (![] : Fin 0 → Fin S100000x90.rank)
  slices_S6_S1_4 : S6.Slices ![4] S1
  slices_S100000x600_S100000x80_0_460 : S100000x600.Slices ![0, 460] S100000x80
  bcast_S_S100000x80 : S_.BroadcastsInDim S100000x80 (![] : Fin 0 → Fin S100000x80.rank)
  slices_S6_S1_5 : S6.Slices ![5] S1
  slices_S100000x600_S100000x60_0_540 : S100000x600.Slices ![0, 540] S100000x60
  bcast_S_S100000x60 : S_.BroadcastsInDim S100000x60 (![] : Fin 0 → Fin S100000x60.rank)
  concatenates_S100000x150_S100000x150_S100000x120_S100000x120_S100000x100_S100000x100_S100000x90_S100000x90_S100000x80_S100000x80_S100000x60_S100000x60_S100000x1200_d1 : Shape.Concatenates [S100000x150, S100000x150, S100000x120, S100000x120, S100000x100, S100000x100, S100000x90, S100000x90, S100000x80, S100000x80, S100000x60, S100000x60] S100000x1200 1
  gather_S6x8_S600x1_S600x8_1_0_n_n_0_1_18_wf : GatherDims.WF S6x8 S600x1 S600x8 [1] [0] [] [0] [] 1 ![1, 8]
  dot_S100000x8_S8x600_S100000x600_1_0_0_1_n_n_wf : DotDims.WF S100000x8 S8x600 S100000x600 [1] [0] [0] [1] [] []

variable [Facts₀]

def gather_S6x8_S600x1_S600x8_1_0_n_n_0_1_18 : GatherDims S6x8 S600x1 S600x8 where
  offsetDims := [1]
  collapsedSliceDims := [0]
  operandBatchingDims := []
  startIndicesBatchingDims := []
  startIndexMap := [0]
  indexVectorDim := 1
  sliceSizes := ![1, 8]
  wf := gather_S6x8_S600x1_S600x8_1_0_n_n_0_1_18_wf
def dot_S100000x8_S8x600_S100000x600_1_0_0_1_n_n : DotDims S100000x8 S8x600 S100000x600 where
  lhsContracting := [1]
  rhsContracting := [0]
  lhsNonContracting := [0]
  rhsNonContracting := [1]
  lhsBatch := []
  rhsBatch := []
  wf := dot_S100000x8_S8x600_S100000x600_1_0_0_1_n_n_wf

class Facts : Prop extends Facts₀ where

variable [Facts]
-- ==== Proof.Bands.lean ====
/-
  Twelve column bands laid side by side.

  The result has 1200 columns: for each of six components — of 150, 120, 100, 90, 80 and 60 samples, 600 in all — first
  the cosine features of the component's samples, then the sine features of the same samples. `samp c` is the sample
  that column `c` carries and `isSin c` says whether it carries the sine; `interleave C S` is the [R, 1200] array that
  reads the cosine array `C` or the sine array `S` (both [R, 600], one column per sample) accordingly. A concatenation
  along the columns of the twelve column slices of `C` and `S`, in that order, is `interleave C S`: where a column
  falls among the pieces' widths names the piece, and the slice's offset then names the sample.
-/
import Idealize.ShloMosaic.Lib.ValueIdx
import Idealize.ShloMosaic.Lib.Pipeline.Value

noncomputable section

namespace Cert.Bands

open Idealize.ShloMosaic Idealize.ShloMosaic.ValueIdx

/-- The sample carried by output column `c`: the column's position within its band plus the samples of the components before. -/
def samp (c : ℕ) : ℕ :=
  if c < 150 then c else if c < 300 then c - 150 else if c < 420 then c - 150 else if c < 540 then c - 270
  else if c < 640 then c - 270 else if c < 740 then c - 370 else if c < 830 then c - 370 else if c < 920 then c - 460
  else if c < 1000 then c - 460 else if c < 1080 then c - 540 else if c < 1140 then c - 540 else c - 600

/-- Whether output column `c` lies in a sine band (the second band of its component). -/
def isSin (c : ℕ) : Bool :=
  if c < 150 then false else if c < 300 then true else if c < 420 then false else if c < 540 then true
  else if c < 640 then false else if c < 740 then true else if c < 830 then false else if c < 920 then true
  else if c < 1000 then false else if c < 1080 then true else if c < 1140 then false else true

set_option maxHeartbeats 400000 in
theorem samp_lt {c : ℕ} (h : c < 1200) : samp c < 600 := by
  unfold samp
  repeat' split
  all_goals omega

/-! On each band: whether it is a sine band, and the sample as the band's first sample plus the position in the band. -/
theorem band0 {c : ℕ} (h2 : c < 150) : isSin c = false ∧ 0 + (c - 0) = samp c := by
  unfold isSin samp
  rw [if_pos (by omega : c < 150), if_pos (by omega : c < 150)]
  exact ⟨rfl, by omega⟩
theorem band1 {c : ℕ} (h1 : 150 ≤ c) (h2 : c < 300) : isSin c = true ∧ 0 + (c - 150) = samp c := by
  unfold isSin samp
  rw [if_neg (by omega : ¬c < 150), if_pos (by omega : c < 300), if_neg (by omega : ¬c < 150), if_pos (by omega : c < 300)]
  exact ⟨rfl, by omega⟩
theorem band2 {c : ℕ} (h1 : 300 ≤ c) (h2 : c < 420) : isSin c = false ∧ 150 + (c - 300) = samp c := by
  unfold isSin samp
  rw [if_neg (by omega : ¬c < 150), if_neg (by omega : ¬c < 300), if_pos (by omega : c < 420), if_neg (by omega : ¬c < 150), if_neg (by omega : ¬c < 300), if_pos (by omega : c < 420)]
  exact ⟨rfl, by omega⟩
theorem band3 {c : ℕ} (h1 : 420 ≤ c) (h2 : c < 540) : isSin c = true ∧ 150 + (c - 420) = samp c := by
  unfold isSin samp
  rw [if_neg (by omega : ¬c < 150), if_neg (by omega : ¬c < 300), if_neg (by omega : ¬c < 420), if_pos (by omega : c < 540), if_neg (by omega : ¬c < 150), if_neg (by omega : ¬c < 300), if_neg (by omega : ¬c < 420), if_pos (by omega : c < 540)]
  exact ⟨rfl, by omega⟩
theorem band4 {c : ℕ} (h1 : 540 ≤ c) (h2 : c < 640) : isSin c = false ∧ 270 + (c - 540) = samp c := by
  unfold isSin samp
  rw [if_neg (by omega : ¬c < 150), if_neg (by omega : ¬c < 300), if_neg (by omega : ¬c < 420), if_neg (by omega : ¬c < 540), if_pos (by omega : c < 640), if_neg (by omega : ¬c < 150), if_neg (by omega : ¬c < 300), if_neg (by omega : ¬c < 420), if_neg (by omega : ¬c < 540), if_pos (by omega : c < 640)]
  exact ⟨rfl, by omega⟩
theorem band5 {c : ℕ} (h1 : 640 ≤ c) (h2 : c < 740) : isSin c = true ∧ 270 + (c - 640) = samp c := by
  unfold isSin samp
  rw [if_neg (by omega : ¬c < 150), if_neg (by omega : ¬c < 300), if_neg (by omega : ¬c < 420), if_neg (by omega : ¬c < 540), if_neg (by omega : ¬c < 640), if_pos (by omega : c < 740), if_neg (by omega : ¬c < 150), if_neg (by omega : ¬c < 300), if_neg (by omega : ¬c < 420), if_neg (by omega : ¬c < 540), if_neg (by omega : ¬c < 640), if_pos (by omega : c < 740)]
  exact ⟨rfl, by omega⟩
theorem band6 {c : ℕ} (h1 : 740 ≤ c) (h2 : c < 830) : isSin c = false ∧ 370 + (c - 740) = samp c := by
  unfold isSin samp
  rw [if_neg (by omega : ¬c < 150), if_neg (by omega : ¬c < 300), if_neg (by omega : ¬c < 420), if_neg (by omega : ¬c < 540), if_neg (by omega : ¬c < 640), if_neg (by omega : ¬c < 740), if_pos (by omega : c < 830), if_neg (by omega : ¬c < 150), if_neg (by omega : ¬c < 300), if_neg (by omega : ¬c < 420), if_neg (by omega : ¬c < 540), if_neg (by omega : ¬c < 640), if_neg (by omega : ¬c < 740), if_pos (by omega : c < 830)]
  exact ⟨rfl, by omega⟩
theorem band7 {c : ℕ} (h1 : 830 ≤ c) (h2 : c < 920) : isSin c = true ∧ 370 + (c - 830) = samp c := by
  unfold isSin samp
  rw [if_neg (by omega : ¬c < 150), if_neg (by omega : ¬c < 300), if_neg (by omega : ¬c < 420), if_neg (by omega : ¬c < 540), if_neg (by omega : ¬c < 640), if_neg (by omega : ¬c < 740), if_neg (by omega : ¬c < 830), if_pos (by omega : c < 920), if_neg (by omega : ¬c < 150), if_neg (by omega : ¬c < 300), if_neg (by omega : ¬c < 420), if_neg (by omega : ¬c < 540), if_neg (by omega : ¬c < 640), if_neg (by omega : ¬c < 740), if_neg (by omega : ¬c < 830), if_pos (by omega : c < 920)]
  exact ⟨rfl, by omega⟩
theorem band8 {c : ℕ} (h1 : 920 ≤ c) (h2 : c < 1000) : isSin c = false ∧ 460 + (c - 920) = samp c := by
  unfold isSin samp
  rw [if_neg (by omega : ¬c < 150), if_neg (by omega : ¬c < 300), if_neg (by omega : ¬c < 420), if_neg (by omega : ¬c < 540), if_neg (by omega : ¬c < 640), if_neg (by omega : ¬c < 740), if_neg (by omega : ¬c < 830), if_neg (by omega : ¬c < 920), if_pos (by omega : c < 1000), if_neg (by omega : ¬c < 150), if_neg (by omega : ¬c < 300), if_neg (by omega : ¬c < 420), if_neg (by omega : ¬c < 540), if_neg (by omega : ¬c < 640), if_neg (by omega : ¬c < 740), if_neg (by omega : ¬c < 830), if_neg (by omega : ¬c < 920), if_pos (by omega : c < 1000)]
  exact ⟨rfl, by omega⟩
theorem band9 {c : ℕ} (h1 : 1000 ≤ c) (h2 : c < 1080) : isSin c = true ∧ 460 + (c - 1000) = samp c := by
  unfold isSin samp
  rw [if_neg (by omega : ¬c < 150), if_neg (by omega : ¬c < 300), if_neg (by omega : ¬c < 420), if_neg (by omega : ¬c < 540), if_neg (by omega : ¬c < 640), if_neg (by omega : ¬c < 740), if_neg (by omega : ¬c < 830), if_neg (by omega : ¬c < 920), if_neg (by omega : ¬c < 1000), if_pos (by omega : c < 1080), if_neg (by omega : ¬c < 150), if_neg (by omega : ¬c < 300), if_neg (by omega : ¬c < 420), if_neg (by omega : ¬c < 540), if_neg (by omega : ¬c < 640), if_neg (by omega : ¬c < 740), if_neg (by omega : ¬c < 830), if_neg (by omega : ¬c < 920), if_neg (by omega : ¬c < 1000), if_pos (by omega : c < 1080)]
  exact ⟨rfl, by omega⟩
theorem band10 {c : ℕ} (h1 : 1080 ≤ c) (h2 : c < 1140) : isSin c = false ∧ 540 + (c - 1080) = samp c := by
  unfold isSin samp
  rw [if_neg (by omega : ¬c < 150), if_neg (by omega : ¬c < 300), if_neg (by omega : ¬c < 420), if_neg (by omega : ¬c < 540), if_neg (by omega : ¬c < 640), if_neg (by omega : ¬c < 740), if_neg (by omega : ¬c < 830), if_neg (by omega : ¬c < 920), if_neg (by omega : ¬c < 1000), if_neg (by omega : ¬c < 1080), if_pos (by omega : c < 1140), if_neg (by omega : ¬c < 150), if_neg (by omega : ¬c < 300), if_neg (by omega : ¬c < 420), if_neg (by omega : ¬c < 540), if_neg (by omega : ¬c < 640), if_neg (by omega : ¬c < 740), if_neg (by omega : ¬c < 830), if_neg (by omega : ¬c < 920), if_neg (by omega : ¬c < 1000), if_neg (by omega : ¬c < 1080), if_pos (by omega : c < 1140)]
  exact ⟨rfl, by omega⟩
theorem band11 {c : ℕ} (h1 : 1140 ≤ c) : isSin c = true ∧ 540 + (c - 1140) = samp c := by
  unfold isSin samp
  rw [if_neg (by omega : ¬c < 150), if_neg (by omega : ¬c < 300), if_neg (by omega : ¬c < 420), if_neg (by omega : ¬c < 540), if_neg (by omega : ¬c < 640), if_neg (by omega : ¬c < 740), if_neg (by omega : ¬c < 830), if_neg (by omega : ¬c < 920), if_neg (by omega : ¬c < 1000), if_neg (by omega : ¬c < 1080), if_neg (by omega : ¬c < 1140), if_neg (by omega : ¬c < 150), if_neg (by omega : ¬c < 300), if_neg (by omega : ¬c < 420), if_neg (by omega : ¬c < 540), if_neg (by omega : ¬c < 640), if_neg (by omega : ¬c < 740), if_neg (by omega : ¬c < 830), if_neg (by omega : ¬c < 920), if_neg (by omega : ¬c < 1000), if_neg (by omega : ¬c < 1080), if_neg (by omega : ¬c < 1140)]
  exact ⟨rfl, by omega⟩

/-- Column `c` of the result reads column `samp c` of the sine array in a sine band, of the cosine array otherwise. -/
def interleave {R : ℕ} {α : Type} (C S : (⟨2, ![R, 600]⟩ : Shape).Idx → α) : (⟨2, ![R, 1200]⟩ : Shape).Idx → α :=
  fun j => bif isSin (j 1).val then S (ix2 ⟨(j 0).val, idx2_lt0 j⟩ ⟨samp (j 1).val, samp_lt (idx2_lt1 j)⟩)
    else C (ix2 ⟨(j 0).val, idx2_lt0 j⟩ ⟨samp (j 1).val, samp_lt (idx2_lt1 j)⟩)

theorem interleave_apply {R : ℕ} {α : Type} (C S : (⟨2, ![R, 600]⟩ : Shape).Idx → α) (r : Fin R) (c : Fin 1200) :
    interleave C S (ix2 r c) = bif isSin c.val then S (ix2 r ⟨samp c.val, samp_lt c.isLt⟩)
      else C (ix2 r ⟨samp c.val, samp_lt c.isLt⟩) := rfl

/-- A row of `interleave C S` depends on the same row of `C` and of `S` only. -/
theorem interleave_rows {R R' : ℕ} {α : Type} (C S : (⟨2, ![R, 600]⟩ : Shape).Idx → α) (C' S' : (⟨2, ![R', 600]⟩ : Shape).Idx → α)
    (r : Fin R) (r' : Fin R') (hC : ∀ s, C' (ix2 r' s) = C (ix2 r s)) (hS : ∀ s, S' (ix2 r' s) = S (ix2 r s)) (c : Fin 1200) :
    interleave C' S' (ix2 r' c) = interleave C S (ix2 r c) := by
  rw [interleave_apply, interleave_apply, hC, hS]

/-- The twelve column slices, in the order they are laid side by side. -/
abbrev pieces {R : ℕ} {α : Type} (C S : (⟨2, ![R, 600]⟩ : Shape).Idx → α)
    (h0 : (⟨2, ![R, 600]⟩ : Shape).Slices ![0, 0] ⟨2, ![R, 150]⟩) (h1 : (⟨2, ![R, 600]⟩ : Shape).Slices ![0, 150] ⟨2, ![R, 120]⟩)
    (h2 : (⟨2, ![R, 600]⟩ : Shape).Slices ![0, 270] ⟨2, ![R, 100]⟩) (h3 : (⟨2, ![R, 600]⟩ : Shape).Slices ![0, 370] ⟨2, ![R, 90]⟩)
    (h4 : (⟨2, ![R, 600]⟩ : Shape).Slices ![0, 460] ⟨2, ![R, 80]⟩) (h5 : (⟨2, ![R, 600]⟩ : Shape).Slices ![0, 540] ⟨2, ![R, 60]⟩) :
    List ((s : Shape) × (s.Idx → α)) :=
  [⟨⟨2, ![R, 150]⟩, extractStridedSlice ⟨2, ![R, 150]⟩ ![0, 0] C h0⟩, ⟨⟨2, ![R, 150]⟩, extractStridedSlice ⟨2, ![R, 150]⟩ ![0, 0] S h0⟩,
   ⟨⟨2, ![R, 120]⟩, extractStridedSlice ⟨2, ![R, 120]⟩ ![0, 150] C h1⟩, ⟨⟨2, ![R, 120]⟩, extractStridedSlice ⟨2, ![R, 120]⟩ ![0, 150] S h1⟩,
   ⟨⟨2, ![R, 100]⟩, extractStridedSlice ⟨2, ![R, 100]⟩ ![0, 270] C h2⟩, ⟨⟨2, ![R, 100]⟩, extractStridedSlice ⟨2, ![R, 100]⟩ ![0, 270] S h2⟩,
   ⟨⟨2, ![R, 90]⟩, extractStridedSlice ⟨2, ![R, 90]⟩ ![0, 370] C h3⟩, ⟨⟨2, ![R, 90]⟩, extractStridedSlice ⟨2, ![R, 90]⟩ ![0, 370] S h3⟩,
   ⟨⟨2, ![R, 80]⟩, extractStridedSlice ⟨2, ![R, 80]⟩ ![0, 460] C h4⟩, ⟨⟨2, ![R, 80]⟩, extractStridedSlice ⟨2, ![R, 80]⟩ ![0, 460] S h4⟩,
   ⟨⟨2, ![R, 60]⟩, extractStridedSlice ⟨2, ![R, 60]⟩ ![0, 540] C h5⟩, ⟨⟨2, ![R, 60]⟩, extractStridedSlice ⟨2, ![R, 60]⟩ ![0, 540] S h5⟩]

set_option maxHeartbeats 1000000 in
/-- A column that falls in piece `k`, a slice of `X` from column `lo` that starts at column `pre` of the result,
    reads `X` at column `lo` plus the column's position in the piece. -/
theorem piece_at {R : ℕ} {α : Type} (xs : List ((s : Shape) × (s.Idx → α)))
    (hc : Shape.Concatenates (xs.map (·.1)) ⟨2, ![R, 1200]⟩ 1) (r : Fin R) (c : Fin 1200) (k : ℕ) (hk : k < xs.length)
    (w lo pre : ℕ) (X : (⟨2, ![R, 600]⟩ : Shape).Idx → α) (hX : (⟨2, ![R, 600]⟩ : Shape).Slices ![0, lo] ⟨2, ![R, w]⟩)
    (hxk : xs[k] = ⟨⟨2, ![R, w]⟩, extractStridedSlice ⟨2, ![R, w]⟩ ![0, lo] X hX⟩)
    (hpre : (((xs.take k).map (·.1)).map fun s => if h : s.rank = (⟨2, ![R, 1200]⟩ : Shape).rank then
      s.size ((1 : Fin (⟨2, ![R, 1200]⟩ : Shape).rank).cast h.symm) else 0).sum = pre)
    (h1 : pre ≤ c.val) (h2 : c.val < pre + w) (hlo : lo + w ≤ 600) :
    concatenate ⟨2, ![R, 1200]⟩ 1 xs hc (ix2 r c) = X (ix2 r ⟨lo + (c.val - pre), by omega⟩) := by
  refine (concatenate_apply_piece 1 xs hc (ix2 r c) k hk ⟨2, ![R, w]⟩ _ hxk rfl pre hpre
    (ix2 r ⟨c.val - pre, by omega⟩) (fun b hb => ?_) ?_).trans ?_
  · match b with
    | ⟨0, _⟩ => rfl
    | ⟨1, _⟩ => exact absurd rfl hb
  · show pre + (c.val - pre) = c.val
    omega
  · refine extractStridedSlice_apply ![0, lo] X hX _ _ fun a => ?_
    match a with
    | ⟨0, _⟩ => exact (Nat.zero_add _).symm
    | ⟨1, _⟩ => rfl

set_option maxHeartbeats 4000000 in
/-- THE CONCATENATION of the twelve slices is the interleaved array. -/
theorem concat_bands {R : ℕ} {α : Type} (C S : (⟨2, ![R, 600]⟩ : Shape).Idx → α)
    (h0 : (⟨2, ![R, 600]⟩ : Shape).Slices ![0, 0] ⟨2, ![R, 150]⟩) (h1 : (⟨2, ![R, 600]⟩ : Shape).Slices ![0, 150] ⟨2, ![R, 120]⟩)
    (h2 : (⟨2, ![R, 600]⟩ : Shape).Slices ![0, 270] ⟨2, ![R, 100]⟩) (h3 : (⟨2, ![R, 600]⟩ : Shape).Slices ![0, 370] ⟨2, ![R, 90]⟩)
    (h4 : (⟨2, ![R, 600]⟩ : Shape).Slices ![0, 460] ⟨2, ![R, 80]⟩) (h5 : (⟨2, ![R, 600]⟩ : Shape).Slices ![0, 540] ⟨2, ![R, 60]⟩)
    (hc : Shape.Concatenates ((pieces C S h0 h1 h2 h3 h4 h5).map (·.1)) ⟨2, ![R, 1200]⟩ 1) :
    concatenate ⟨2, ![R, 1200]⟩ 1 (pieces C S h0 h1 h2 h3 h4 h5) hc = interleave C S := by
  funext j
  obtain ⟨r, c, rfl⟩ : ∃ (r : Fin R) (c : Fin 1200), j = ix2 r c := ⟨j 0, j 1, eq_ix2 j⟩
  have hlt := c.isLt
  rw [interleave_apply]
  rcases (by omega : c.val < 150 ∨ (150 ≤ c.val ∧ c.val < 300) ∨ (300 ≤ c.val ∧ c.val < 420) ∨ (420 ≤ c.val ∧ c.val < 540)
      ∨ (540 ≤ c.val ∧ c.val < 640) ∨ (640 ≤ c.val ∧ c.val < 740) ∨ (740 ≤ c.val ∧ c.val < 830) ∨ (830 ≤ c.val ∧ c.val < 920)
      ∨ (920 ≤ c.val ∧ c.val < 1000) ∨ (1000 ≤ c.val ∧ c.val < 1080) ∨ (1080 ≤ c.val ∧ c.val < 1140) ∨ 1140 ≤ c.val)
    with h | h | h | h | h | h | h | h | h | h | h | h
  · refine (piece_at _ hc r c 0 (by show (0 : ℕ) < 12; decide) 150 0 0 C h0 rfl rfl (by omega) (by omega) (by decide)).trans ?_
    obtain ⟨e1, e2⟩ := band0 h
    rw [e1]; exact congrArg C (congrArg (ix2 r) (Fin.ext e2))
  · refine (piece_at _ hc r c 1 (by show (1 : ℕ) < 12; decide) 150 0 150 S h0 rfl rfl (by omega) (by omega) (by decide)).trans ?_
    obtain ⟨e1, e2⟩ := band1 h.1 h.2
    rw [e1]; exact congrArg S (congrArg (ix2 r) (Fin.ext e2))
  · refine (piece_at _ hc r c 2 (by show (2 : ℕ) < 12; decide) 120 150 300 C h1 rfl rfl (by omega) (by omega) (by decide)).trans ?_
    obtain ⟨e1, e2⟩ := band2 h.1 h.2
    rw [e1]; exact congrArg C (congrArg (ix2 r) (Fin.ext e2))
  · refine (piece_at _ hc r c 3 (by show (3 : ℕ) < 12; decide) 120 150 420 S h1 rfl rfl (by omega) (by omega) (by decide)).trans ?_
    obtain ⟨e1, e2⟩ := band3 h.1 h.2
    rw [e1]; exact congrArg S (congrArg (ix2 r) (Fin.ext e2))
  · refine (piece_at _ hc r c 4 (by show (4 : ℕ) < 12; decide) 100 270 540 C h2 rfl rfl (by omega) (by omega) (by decide)).trans ?_
    obtain ⟨e1, e2⟩ := band4 h.1 h.2
    rw [e1]; exact congrArg C (congrArg (ix2 r) (Fin.ext e2))
  · refine (piece_at _ hc r c 5 (by show (5 : ℕ) < 12; decide) 100 270 640 S h2 rfl rfl (by omega) (by omega) (by decide)).trans ?_
    obtain ⟨e1, e2⟩ := band5 h.1 h.2
    rw [e1]; exact congrArg S (congrArg (ix2 r) (Fin.ext e2))
  · refine (piece_at _ hc r c 6 (by show (6 : ℕ) < 12; decide) 90 370 740 C h3 rfl rfl (by omega) (by omega) (by decide)).trans ?_
    obtain ⟨e1, e2⟩ := band6 h.1 h.2
    rw [e1]; exact congrArg C (congrArg (ix2 r) (Fin.ext e2))
  · refine (piece_at _ hc r c 7 (by show (7 : ℕ) < 12; decide) 90 370 830 S h3 rfl rfl (by omega) (by omega) (by decide)).trans ?_
    obtain ⟨e1, e2⟩ := band7 h.1 h.2
    rw [e1]; exact congrArg S (congrArg (ix2 r) (Fin.ext e2))
  · refine (piece_at _ hc r c 8 (by show (8 : ℕ) < 12; decide) 80 460 920 C h4 rfl rfl (by omega) (by omega) (by decide)).trans ?_
    obtain ⟨e1, e2⟩ := band8 h.1 h.2
    rw [e1]; exact congrArg C (congrArg (ix2 r) (Fin.ext e2))
  · refine (piece_at _ hc r c 9 (by show (9 : ℕ) < 12; decide) 80 460 1000 S h4 rfl rfl (by omega) (by omega) (by decide)).trans ?_
    obtain ⟨e1, e2⟩ := band9 h.1 h.2
    rw [e1]; exact congrArg S (congrArg (ix2 r) (Fin.ext e2))
  · refine (piece_at _ hc r c 10 (by show (10 : ℕ) < 12; decide) 60 540 1080 C h5 rfl rfl (by omega) (by omega) (by decide)).trans ?_
    obtain ⟨e1, e2⟩ := band10 h.1 h.2
    rw [e1]; exact congrArg C (congrArg (ix2 r) (Fin.ext e2))
  · refine (piece_at _ hc r c 11 (by show (11 : ℕ) < 12; decide) 60 540 1140 S h5 rfl rfl (by omega) (by omega) (by decide)).trans ?_
    obtain ⟨e1, e2⟩ := band11 h
    rw [e1]; exact congrArg S (congrArg (ix2 r) (Fin.ext e2))

end Cert.Bands

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Feat.lean ====
/-
  Random Fourier features on the extended reals, over any number of rows.

  For inputs `X` ([R, 8]), spectral points laid out transposed `T` ([8, 600], one column per sample) and a one-row array
  `a` of amplitudes ([1, 600]), the feature array of a trigonometric function `trig` is
  `feat trig X T a (p, s) = trig (2π · ∑ d, X(p, d) · T(d, s)) · a(0, s)`: the phase is 2π times the matrix product, and every
  column is scaled by its sample's amplitude. The vector unit computes it as written (the product into a zero accumulator,
  the splat 2π, the amplitude row broadcast along the rows). The host computes `trig (2π · (x T))` first and scales a band
  of its columns by ONE scalar; where the amplitude row is that scalar on the band, the band of the scaled array is the
  scaled band — the product of two extended reals commutes.
-/
import Idealize.ShloMosaic.PureOps.Ideal.Laws
import Idealize.ShloMosaic.Lib.ValueIdx
import Idealize.ShloMosaic.Lib.ValueLayout
import Idealize.ShloMosaic.Lib.Pipeline.Value
import proofs.«164334_j51230369907346_2_alg».proof.Proof.LibDense

noncomputable section

open scoped BigOperators

namespace Cert.Feat

open Idealize.ShloMosaic Idealize.ShloMosaic.ValueIdx Cert.Dense

/-- 2π as both programs spell it: the single-precision word nearest to it, read exactly. -/
def twoPi : EReal := Ideal.ofBits .f32 0x40C90FDB#32

/-- `trig` of the phase, 2π times the matrix product. -/
def wave {R : ℕ} (trig : EReal → EReal) (X : Mat R 8) (T : Mat 8 600) : Mat R 600 :=
  fun i => trig (twoPi * mm X T i)

/-- Every column of `Q` scaled by its entry of the one-row array `a`. -/
def scaleCols {R : ℕ} (Q : Mat R 600) (a : Mat 1 600) : Mat R 600 :=
  fun i => Q i * a (ix2 (0 : Fin 1) (c1 i))

/-- The feature array: `trig` of the phase, every column scaled by its sample's amplitude. -/
def feat {R : ℕ} (trig : EReal → EReal) (X : Mat R 8) (T : Mat 8 600) (a : Mat 1 600) : Mat R 600 :=
  scaleCols (wave trig X T) a

theorem feat_apply {R : ℕ} (trig : EReal → EReal) (X : Mat R 8) (T : Mat 8 600) (a : Mat 1 600) (p : Fin R) (s : Fin 600) :
    feat trig X T a (ix2 p s) = trig (twoPi * ∑ d : Fin 8, X (ix2 p d) * T (ix2 d s)) * a (ix2 (0 : Fin 1) s) := rfl

/-- A row of the feature array depends on the same row of the inputs only. -/
theorem feat_rows {R R' : ℕ} (trig : EReal → EReal) (X : Mat R 8) (X' : Mat R' 8) (T : Mat 8 600) (a : Mat 1 600)
    (p : Fin R) (p' : Fin R') (hX : ∀ d, X' (ix2 p' d) = X (ix2 p d)) (s : Fin 600) :
    feat trig X' T a (ix2 p' s) = feat trig X T a (ix2 p s) := by
  simp only [feat_apply, hX]

/-- The vector unit's cosine features: the product into a zero accumulator, times the splat 2π, the cosine, times the
    amplitude row broadcast along the rows. -/
theorem vecFeat_cos {R : ℕ} (D : DotDims ⟨2, ![R, 8]⟩ ⟨2, ![8, 600]⟩ ⟨2, ![R, 600]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (X : FVec Ideal ⟨2, ![R, 8]⟩ .f32) (T : FVec Ideal ⟨2, ![8, 600]⟩ .f32)
    (a : FVec Ideal ⟨2, ![1, 600]⟩ .f32) (hb : (⟨2, ![1, 600]⟩ : Shape).Broadcasts ⟨2, ![R, 600]⟩) :
    mulf (cos (mulf (broadcast ⟨2, ![R, 600]⟩ (Scalar.ofBits (F := Ideal) .f32 0x40C90FDB#32))
        (matmul (F := Ideal) D prec X T (constant ⟨2, ![R, 600]⟩ .f32 0x00000000#32)))) (broadcastTo ⟨2, ![R, 600]⟩ a hb)
      = feat Ideal.cos X T a := by
  rw [matmul_zero_eq_mm D h1 h2 h3 h4 h5 h6]
  funext i
  obtain ⟨p, q, rfl⟩ : ∃ (p : Fin R) (q : Fin 600), i = ix2 p q := ⟨i 0, i 1, eq_ix2 i⟩
  show Ideal.cos (Ideal.ofBits .f32 0x40C90FDB#32 * mm X T (ix2 p q)) * broadcastTo ⟨2, ![R, 600]⟩ a hb (ix2 p q) = _
  rw [broadcastTo_1b_ab_apply]
  rfl

/-- The vector unit's sine features, likewise. -/
theorem vecFeat_sin {R : ℕ} (D : DotDims ⟨2, ![R, 8]⟩ ⟨2, ![8, 600]⟩ ⟨2, ![R, 600]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (X : FVec Ideal ⟨2, ![R, 8]⟩ .f32) (T : FVec Ideal ⟨2, ![8, 600]⟩ .f32)
    (a : FVec Ideal ⟨2, ![1, 600]⟩ .f32) (hb : (⟨2, ![1, 600]⟩ : Shape).Broadcasts ⟨2, ![R, 600]⟩) :
    mulf (sin (mulf (broadcast ⟨2, ![R, 600]⟩ (Scalar.ofBits (F := Ideal) .f32 0x40C90FDB#32))
        (matmul (F := Ideal) D prec X T (constant ⟨2, ![R, 600]⟩ .f32 0x00000000#32)))) (broadcastTo ⟨2, ![R, 600]⟩ a hb)
      = feat Ideal.sin X T a := by
  rw [matmul_zero_eq_mm D h1 h2 h3 h4 h5 h6]
  funext i
  obtain ⟨p, q, rfl⟩ : ∃ (p : Fin R) (q : Fin 600), i = ix2 p q := ⟨i 0, i 1, eq_ix2 i⟩
  show Ideal.sin (Ideal.ofBits .f32 0x40C90FDB#32 * mm X T (ix2 p q)) * broadcastTo ⟨2, ![R, 600]⟩ a hb (ix2 p q) = _
  rw [broadcastTo_1b_ab_apply]
  rfl

/-- The host's cosine of the phase: the scalar 2π broadcast everywhere, times the dot product, then the cosine. -/
theorem hostWave_cos {R : ℕ} (D : DotDims ⟨2, ![R, 8]⟩ ⟨2, ![8, 600]⟩ ⟨2, ![R, 600]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (x : FVec Ideal ⟨2, ![R, 8]⟩ .f32) (T : FVec Ideal ⟨2, ![8, 600]⟩ .f32)
    (h0 : (⟨0, ![]⟩ : Shape).BroadcastsInDim ⟨2, ![R, 600]⟩ ![]) :
    Host.cos (mulf (broadcastInDim ⟨2, ![R, 600]⟩ ![] h0 (constant (F := Ideal) ⟨0, ![]⟩ .f32 0x40C90FDB#32))
        (Host.dotGeneral (F := Ideal) D prec x T)) = wave Ideal.cos x T := by
  rw [hostDot_eq_mm D h1 h2 h3 h4 h5 h6]
  funext i
  show Ideal.cos (broadcastInDim ⟨2, ![R, 600]⟩ ![] h0 (constant (F := Ideal) ⟨0, ![]⟩ .f32 0x40C90FDB#32) i * mm x T i) = _
  rw [broadcastInDim_apply ![] h0 _ i ix0 (fun a => a.elim0)]
  rfl

/-- The host's sine of the phase, likewise. -/
theorem hostWave_sin {R : ℕ} (D : DotDims ⟨2, ![R, 8]⟩ ⟨2, ![8, 600]⟩ ⟨2, ![R, 600]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (x : FVec Ideal ⟨2, ![R, 8]⟩ .f32) (T : FVec Ideal ⟨2, ![8, 600]⟩ .f32)
    (h0 : (⟨0, ![]⟩ : Shape).BroadcastsInDim ⟨2, ![R, 600]⟩ ![]) :
    Host.sin (mulf (broadcastInDim ⟨2, ![R, 600]⟩ ![] h0 (constant (F := Ideal) ⟨0, ![]⟩ .f32 0x40C90FDB#32))
        (Host.dotGeneral (F := Ideal) D prec x T)) = wave Ideal.sin x T := by
  rw [hostDot_eq_mm D h1 h2 h3 h4 h5 h6]
  funext i
  show Ideal.sin (broadcastInDim ⟨2, ![R, 600]⟩ ![] h0 (constant (F := Ideal) ⟨0, ![]⟩ .f32 0x40C90FDB#32) i * mm x T i) = _
  rw [broadcastInDim_apply ![] h0 _ i ix0 (fun a => a.elim0)]
  rfl

/-- A band of columns `lo … lo + w − 1` of `Q` scaled by ONE scalar `A` is the same band of `Q` with every column scaled
    by the amplitude row, when the row is `A` on the band. -/
theorem hostBand {R w lo : ℕ} (Q : Mat R 600) (a : Mat 1 600) (A : FVec Ideal ⟨0, ![]⟩ .f32)
    (hs : (⟨2, ![R, 600]⟩ : Shape).Slices ![0, lo] ⟨2, ![R, w]⟩) (h0 : (⟨0, ![]⟩ : Shape).BroadcastsInDim ⟨2, ![R, w]⟩ ![])
    (hlo : lo + w ≤ 600) (ha : ∀ s : Fin 600, lo ≤ s.val → s.val < lo + w → a (ix2 (0 : Fin 1) s) = A ix0) :
    mulf (broadcastInDim ⟨2, ![R, w]⟩ ![] h0 A) (extractStridedSlice ⟨2, ![R, w]⟩ ![0, lo] Q hs)
      = extractStridedSlice ⟨2, ![R, w]⟩ ![0, lo] (scaleCols Q a) hs := by
  funext j
  obtain ⟨p, q, rfl⟩ : ∃ (p : Fin R) (q : Fin w), j = ix2 p q := ⟨j 0, j 1, eq_ix2 j⟩
  have hq := q.isLt
  have hk : ∀ b : Fin 2, ((ix2 p (⟨lo + q.val, by omega⟩ : Fin 600)) b).val = (![0, lo] : Fin 2 → ℕ) b + ((ix2 p q) (b.cast rfl)).val := fun b => by
    match b with
    | ⟨0, _⟩ => exact (Nat.zero_add _).symm
    | ⟨1, _⟩ => rfl
  show broadcastInDim ⟨2, ![R, w]⟩ ![] h0 A (ix2 p q) * extractStridedSlice ⟨2, ![R, w]⟩ ![0, lo] Q hs (ix2 p q) = _
  rw [broadcastInDim_apply ![] h0 A (ix2 p q) ix0 (fun b => b.elim0),
    extractStridedSlice_apply ![0, lo] Q hs (ix2 p q) (ix2 p ⟨lo + q.val, by omega⟩) hk,
    extractStridedSlice_apply ![0, lo] (scaleCols Q a) hs (ix2 p q) (ix2 p ⟨lo + q.val, by omega⟩) hk]
  show A ix0 * Q (ix2 p ⟨lo + q.val, _⟩) = Q (ix2 p ⟨lo + q.val, _⟩) * a (ix2 (0 : Fin 1) ⟨lo + q.val, _⟩)
  rw [ha ⟨lo + q.val, by omega⟩ (by show lo ≤ lo + q.val; omega) (by show lo + q.val < lo + w; omega), mul_comm]

end Cert.Feat

end
-- ==== Proof.KPay.lean ====
/-
  The kernel body's stored value as a function of its three loaded blocks.

  From a block `X0` of 2000 input rows, the transposed spectral points `X1` and the amplitude row `X2`, the body forms the
  cosine and the sine feature arrays of the block (the matrix product into a zero accumulator, times 2π, the function,
  times the amplitude row broadcast along the rows) and stores the twelve column slices of the two arrays laid side by
  side: the interleaved array of the block's features.
-/
import proofs.«164334_j51230369907346_2_alg».proof.Proof.Gen.KernelIdeal.Skeleton
import proofs.«164334_j51230369907346_2_alg».proof.Proof.Bands
import proofs.«164334_j51230369907346_2_alg».proof.Proof.Feat

noncomputable section

namespace Cert.KernelIdeal.Hand

open Cert.KernelIdeal Cert.KernelIdeal.Gen Idealize.ShloMosaic Idealize.ShloMosaic.ValueIdx Cert.Bands Cert.Feat

set_option maxHeartbeats 2000000 in
/-- The stored value is the interleaved array of the block's cosine and sine features. -/
theorem pay_eq (X0 : Vec Ideal S2000x8 .f32) (X1 : Vec Ideal S8x600 .f32) (X2 : Vec Ideal S1x600 .f32) :
    k0_pay1 (F := Ideal) X0 X1 X2 = interleave (feat Ideal.cos X0 X1 X2) (feat Ideal.sin X0 X1 X2) := by
  unfold k0_pay1
  dsimp only
  rw [shapeCast_self, shapeCast_self,
    vecFeat_cos dot_S2000x8_S8x600_S2000x600_1_0_0_1_n_n rfl rfl rfl rfl rfl rfl,
    vecFeat_sin dot_S2000x8_S8x600_S2000x600_1_0_0_1_n_n rfl rfl rfl rfl rfl rfl]
  exact concat_bands _ _ _ _ _ _ _ _ _

end Cert.KernelIdeal.Hand

end
-- ==== Proof.Amp.lean ====
/-
  The amplitudes. Sample `s` of the 600 belongs to component `comp s` — the components hold 150, 120, 100, 90, 80 and 60
  samples, in that order — and the features of a component's samples are scaled by the square root of the component's
  weight over its sample count. `ampRow w` lays the 600 samples' amplitudes out as one row; on a component's band of
  samples it is the component's amplitude.
-/
import Idealize.ShloMosaic.PureOps.Ideal.Laws
import Idealize.ShloMosaic.Lib.ValueIdx
import Idealize.ShloMosaic.Lib.ValueLayout
import Idealize.ShloMosaic.Lib.Pipeline.Value
import proofs.«164334_j51230369907346_2_alg».proof.Proof.LibDense

noncomputable section

namespace Cert.Amp

open Idealize.ShloMosaic Idealize.ShloMosaic.ValueIdx Cert.Dense

/-- The component that sample `s` belongs to. -/
def comp (s : ℕ) : ℕ :=
  if s < 150 then 0 else if s < 270 then 1 else if s < 370 then 2 else if s < 460 then 3 else if s < 540 then 4 else 5

theorem comp_lt (s : ℕ) : comp s < 6 := by
  unfold comp
  repeat' split
  all_goals omega

theorem comp_band0 {s : ℕ} (h2 : s < 150) : comp s = 0 := by
  unfold comp
  rw [if_pos (by omega : s < 150)]
theorem comp_band1 {s : ℕ} (h1 : 150 ≤ s) (h2 : s < 270) : comp s = 1 := by
  unfold comp
  rw [if_neg (by omega : ¬s < 150), if_pos (by omega : s < 270)]
theorem comp_band2 {s : ℕ} (h1 : 270 ≤ s) (h2 : s < 370) : comp s = 2 := by
  unfold comp
  rw [if_neg (by omega : ¬s < 150), if_neg (by omega : ¬s < 270), if_pos (by omega : s < 370)]
theorem comp_band3 {s : ℕ} (h1 : 370 ≤ s) (h2 : s < 460) : comp s = 3 := by
  unfold comp
  rw [if_neg (by omega : ¬s < 150), if_neg (by omega : ¬s < 270), if_neg (by omega : ¬s < 370), if_pos (by omega : s < 460)]
theorem comp_band4 {s : ℕ} (h1 : 460 ≤ s) (h2 : s < 540) : comp s = 4 := by
  unfold comp
  rw [if_neg (by omega : ¬s < 150), if_neg (by omega : ¬s < 270), if_neg (by omega : ¬s < 370), if_neg (by omega : ¬s < 460), if_pos (by omega : s < 540)]
theorem comp_band5 {s : ℕ} (h1 : 540 ≤ s) : comp s = 5 := by
  unfold comp
  rw [if_neg (by omega : ¬s < 150), if_neg (by omega : ¬s < 270), if_neg (by omega : ¬s < 370), if_neg (by omega : ¬s < 460), if_neg (by omega : ¬s < 540)]

/-- The six sample counts 150, 120, 100, 90, 80, 60 as single-precision words. -/
def cntWord : Fin 6 → BitVec 32 :=
  ![0x43160000#32, 0x42F00000#32, 0x42C80000#32, 0x42B40000#32, 0x42A00000#32, 0x42700000#32]

/-- The amplitude of component `k`: the square root of its weight over its sample count. -/
def amp (w : Row 6) (k : Fin 6) : EReal := Ideal.sqrt (Ideal.div (w (ix1 k)) (Ideal.ofBits .f32 (cntWord k)))

/-- The samples' amplitudes as one row. -/
def ampRow (w : Row 6) : Mat 1 600 := fun i => amp w ⟨comp (c1 i).val, comp_lt _⟩

theorem ampRow_apply (w : Row 6) (u : Fin 1) (s : Fin 600) : ampRow w (ix2 u s) = amp w ⟨comp s.val, comp_lt _⟩ := rfl

/-- On the samples of component `k` the amplitude row is the component's amplitude. -/
theorem ampRow_of_comp (w : Row 6) (s : Fin 600) (k : Fin 6) (h : comp s.val = k.val) : ampRow w (ix2 (0 : Fin 1) s) = amp w k := by
  rw [ampRow_apply]
  exact congrArg (amp w) (Fin.ext h)

/-- The host's amplitude of component `k`: entry `k` of the weights sliced out and reshaped to a scalar, divided by the
    count, then the square root. -/
theorem hostAmp (w : Row 6) (k : Fin 6) (word : BitVec 32) (hw : cntWord k = word)
    (hs : (⟨1, ![6]⟩ : Shape).Slices ![k.val] ⟨1, ![1]⟩) (hcast : (⟨1, ![1]⟩ : Shape).ShapeCasts ⟨0, ![]⟩) :
    Host.sqrt (Host.divf (shapeCast ⟨0, ![]⟩ (extractStridedSlice ⟨1, ![1]⟩ ![k.val] w hs) hcast)
      (constant (F := Ideal) ⟨0, ![]⟩ .f32 word)) ix0 = amp w k := by
  subst hw
  show Ideal.sqrt (Ideal.div (shapeCast ⟨0, ![]⟩ (extractStridedSlice ⟨1, ![1]⟩ ![k.val] w hs) hcast ix0)
    (Ideal.ofBits .f32 (cntWord k))) = _
  have h1 : (⟨0, ![]⟩ : Shape).numel = 1 := Shape.numel_eq_one fun a => a.elim0
  rw [shapeCast_apply _ hcast ix0 (ix1 (0 : Fin 1)) (by
      rw [Shape.rowMajor_val_one]
      have := ((⟨0, ![]⟩ : Shape).rowMajor ix0).isLt
      show (0 : ℕ) = _
      omega),
    extractStridedSlice_apply ![k.val] w hs (ix1 (0 : Fin 1)) (ix1 k) (fun a => by
      match a with
      | ⟨0, _⟩ => rfl)]
  rfl

end Cert.Amp

end
-- ==== Proof.Tables.lean ====
/-
  The constant tables of the two programs.

  Both programs carry the same table of 600 integers, entry `s` the component of sample `s`: 150 zeros, 120 ones,
  100 twos, 90 threes, 80 fours and 60 fives. The program with the kernel also carries the six sample counts as one
  array. Each fact is a finite check over the table's entries.
-/
import proofs.«164334_j51230369907346_2_alg».proof.KernelIdeal
import proofs.«164334_j51230369907346_2_alg».proof.ReferenceIdeal
import proofs.«164334_j51230369907346_2_alg».proof.Proof.Amp

namespace Cert.Tables

open Cert.Amp

/-- Entry `s` of the table, read as a signed integer, is the component of sample `s`. -/
theorem lit0_comp : ∀ s : Fin 600, (Cert.KernelIdeal.lit0 s).toInt.toNat = comp s.val := by
  decide +kernel

/-- The two programs' tables are one table. -/
theorem lit0_eq : ∀ s : Fin 600, Cert.ReferenceIdeal.lit0 s = Cert.KernelIdeal.lit0 s := by
  decide +kernel

/-- The array of sample counts holds the six count words. -/
theorem lit1_cnt : ∀ k : Fin 6, Cert.KernelIdeal.lit1 k = cntWord k := by
  decide +kernel

end Cert.Tables
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.KHost.lean ====
/-
  What the host computes before the region, as functions of the arguments.

  Two of the region's operands are not arguments but host results: the transposed spectral points (rows of the means and
  of the deviations gathered at each sample's component, the deviations' rows times the noise, added, transposed) and the
  amplitude row (the square roots of the weights over the sample counts, gathered at each sample's component, as one
  row). The gathers' start indices are the constant table of components; a start index is read signed and clamped,
  which changes no entry of the table. So the amplitude row is `ampRow` of the weights.
-/
import proofs.«164334_j51230369907346_2_alg».proof.Proof.Gen.KernelIdeal.Frame
import proofs.«164334_j51230369907346_2_alg».proof.Proof.Amp
import proofs.«164334_j51230369907346_2_alg».proof.Proof.Tables
import proofs.«164334_j51230369907346_2_alg».proof.Proof.LibGatherVec
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Amp Cert.Dense

/-- The gathers' start indices: the table of components as a column. -/
def kIdxCol : IVec S600x1 32 :=
  broadcastInDim S600x1 ![0] bcast_S600_S600x1_0 (select (constantI S600 1 0#1)
    (addi (fun i => lit0 (S600.rowMajor i)) (broadcastInDim S600 ![] bcast_S_S600 (constantI S_ 32 6#32)))
    (fun i => lit0 (S600.rowMajor i)))

/-- The transposed spectral points: mean plus deviation times noise, one column per sample. -/
def kSpecT (mu sd : FVec Ideal S6x8 .f32) (ep : FVec Ideal S600x8 .f32) : FVec Ideal S8x600 .f32 :=
  transpose S8x600 [1, 0] (addf (Host.gather gather_S6x8_S600x1_S600x8_1_0_n_n_0_1_18 mu kIdxCol)
    (mulf (Host.gather gather_S6x8_S600x1_S600x8_1_0_n_n_0_1_18 sd kIdxCol) ep)) transposes_S600x8_S8x600_1_0

/-- The amplitude row as the host computes it. -/
def kScale (w : FVec Ideal S6 .f32) : FVec Ideal S1x600 .f32 :=
  shapeCast S1x600 (Host.gather gather_S6_S600x1_S600_n_0_n_n_0_1_1
    (Host.sqrt (Host.divf w (fun i => FloatOps.ofBits .f32 (lit1 (S6.rowMajor i))))) kIdxCol) shapeCasts_S600_S1x600

variable (m : (ℓ : Loc nD τ sig) → Buf (Elt Ideal) ℓ)

set_option maxRecDepth 8192 in
set_option maxHeartbeats 8000000 in
/-- The region finds the transposed spectral points in its second operand. -/
theorem V_v12 (c : Dev nD) : (V m c main_v12 : S8x600.Idx → EReal)
    = kSpecT (m ((c : Thread nD τ).loc main_arg2)) (m ((c : Thread nD τ).loc main_arg3)) (m ((c : Thread nD τ).loc main_arg4)) := by
  dsimp only [V, hostOps0]
  after_results_simp
  rfl

set_option maxRecDepth 8192 in
set_option maxHeartbeats 8000000 in
/-- The region finds the amplitude row in its third operand. -/
theorem V_v20 (c : Dev nD) : (V m c main_v20 : S1x600.Idx → EReal) = kScale (m ((c : Thread nD τ).loc main_arg1)) := by
  dsimp only [V, hostOps0]
  after_results_simp
  rfl

/-- Entry `s` of the start-index column is entry `s` of the table: the selection's mask is nowhere set. -/
theorem kIdxCol_apply (s : Fin 600) : kIdxCol (ix2 s (0 : Fin 1)) = lit0 s := by
  unfold kIdxCol
  rw [broadcastInDim_apply ![0] bcast_S600_S600x1_0 _ (ix2 s (0 : Fin 1)) (ix1 s) (fun a => by
    match a with
    | ⟨0, _⟩ =>
      show s.val = if (600 : ℕ) = 1 then 0 else s.val
      rw [if_neg (by decide)])]
  show Scalar.select (0#1) _ (lit0 (S600.rowMajor (ix1 s))) = _
  rw [select_zero]
  exact congrArg lit0 (Fin.ext (Shape.rowMajor_val_one _))

/-- The host's amplitude row is `ampRow` of the weights. -/
theorem kScale_eq (w : FVec Ideal S6 .f32) : kScale w = ampRow w := by
  funext i
  obtain ⟨u, s, rfl⟩ : ∃ (u : Fin 1) (s : Fin 600), i = ix2 u s := ⟨i 0, i 1, eq_ix2 i⟩
  unfold kScale
  rw [shapeCast_a_1a_apply]
  have hd : gather_S6_S600x1_S600_n_0_n_n_0_1_1
      = Cert.GatherVec.vecDims 6 600 gather_S6_S600x1_S600_n_0_n_n_0_1_1_wf := rfl
  rw [hd, Cert.GatherVec.gather_vec_apply (by decide)]
  have key : ∀ q : Fin 6, q.val = comp s.val →
      Host.sqrt (Host.divf w (fun i => FloatOps.ofBits (F := Ideal) .f32 (lit1 (S6.rowMajor i)))) (ix1 q) = ampRow w (ix2 u s) := by
    intro q hq
    obtain rfl : q = ⟨comp s.val, comp_lt _⟩ := Fin.ext hq
    have e : lit1 (S6.rowMajor (ix1 (⟨comp s.val, comp_lt _⟩ : Fin 6))) = cntWord ⟨comp s.val, comp_lt _⟩ :=
      (congrArg lit1 (Fin.ext (Shape.rowMajor_val_one _))).trans (Cert.Tables.lit1_cnt _)
    show Ideal.sqrt (Ideal.div (w (ix1 _)) (Ideal.ofBits .f32 (lit1 (S6.rowMajor (ix1 (⟨comp s.val, comp_lt _⟩ : Fin 6)))))) = _
    rw [e]
    rfl
  refine key _ ?_
  show min (kIdxCol (ix2 s (0 : Fin 1))).toInt.toNat (6 - 1) = comp s.val
  rw [kIdxCol_apply, Cert.Tables.lit0_comp]
  have := comp_lt s.val
  omega

end Cert.KernelIdeal.Hand

end
-- ==== Proof.Spec.lean ====
/-
  The specification: the whole result as one function of the inputs, the weights and the transposed spectral points.

  Row `n`, column `c` of the result is the cosine or the sine (by the column's band) of 2π times the inner product of
  input row `n` with the spectral point of sample `samp c`, times the amplitude of that sample's component.
-/
import proofs.«164334_j51230369907346_2_alg».proof.Proof.Bands
import proofs.«164334_j51230369907346_2_alg».proof.Proof.Feat
import proofs.«164334_j51230369907346_2_alg».proof.Proof.Amp

noncomputable section

namespace Cert.Spec

open Idealize.ShloMosaic Idealize.ShloMosaic.ValueIdx Cert.Bands Cert.Feat Cert.Amp Cert.Dense

/-- The result array. -/
def G (x : Mat 100000 8) (w : Row 6) (T : Mat 8 600) : (⟨2, ![100000, 1200]⟩ : Shape).Idx → EReal :=
  interleave (feat Ideal.cos x T (ampRow w)) (feat Ideal.sin x T (ampRow w))

end Cert.Spec

end
-- ==== Proof.KValue.lean ====
/-
  The kernel's result array as the specification's function of the arguments.

  Grid point `t` works on input rows `2000 t … 2000 t + 1999`: its input block is those rows of the inputs, its other two
  operands are the whole transposed spectral points and the whole amplitude row, and what it writes back is the same
  rows of the result. The interleaved feature array is row-local, so the block it writes is the specification read
  through the block's rows; the fifty blocks cover all 100000 rows, so the array ends holding the specification.
-/
import proofs.«164334_j51230369907346_2_alg».proof.Proof.Gen.KernelIdeal.Value
import proofs.«164334_j51230369907346_2_alg».proof.Proof.KPay
import proofs.«164334_j51230369907346_2_alg».proof.Proof.KHost
import proofs.«164334_j51230369907346_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx
open Cert.Bands Cert.Feat Cert.Amp Cert.Dense

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the fifty points: the input and the result move one block of rows per point,
    the other two operands stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 50 := by
  have h := t.isLt
  have hN : cfg0.N = 50 := N_0
  omega

/-- The input block at point `t` is rows `2000 t …` of the inputs. -/
theorem iblk0_apply (c : Dev nD) (t : Fin cfg0.N) (r : Fin 2000) (d : Fin 8) :
    (iblk m c 0 t : Vec Ideal S2000x8 .f32) (ix2 r d)
      = (m ((c : Thread nD τ).loc main_arg0) : S100000x8.Idx → EReal)
          (ix2 (⟨2000 * t.val + r.val, by have := t_lt t; have := r.isLt; omega⟩ : Fin 100000) d) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 2000 + 1 * r.val = 2000 * t.val + r.val; rw [e0]; omega
  | ⟨1, _⟩ => show win0_0.index t (1 : Fin 2) * 8 + 1 * d.val = d.val; rw [e1]; omega

/-- The second operand's block is the whole array of transposed spectral points. -/
theorem iblk1_eq (c : Dev nD) (t : Fin cfg0.N) :
    (iblk m c 1 t : Vec Ideal S8x600 .f32) = (V m c main_v12 : S8x600.Idx → EReal) := by
  obtain ⟨-, -, e2, e3, -⟩ := idx_facts t
  funext y
  unfold iblk
  rw [View.read_apply]
  show V m c main_v12 _ = V m c main_v12 y
  congr 1
  funext a
  apply Fin.ext
  match a with
  | ⟨0, _⟩ => show win0_1.index t (0 : Fin 2) * 8 + 1 * (y 0).val = (y 0).val; rw [e2]; omega
  | ⟨1, _⟩ => show win0_1.index t (1 : Fin 2) * 600 + 1 * (y 1).val = (y 1).val; rw [e3]; omega

/-- The third operand's block is the whole amplitude row. -/
theorem iblk2_eq (c : Dev nD) (t : Fin cfg0.N) :
    (iblk m c 2 t : Vec Ideal S1x600 .f32) = (V m c main_v20 : S1x600.Idx → EReal) := by
  obtain ⟨-, -, -, -, e4, e5, -⟩ := idx_facts t
  funext y
  unfold iblk
  rw [View.read_apply]
  show V m c main_v20 _ = V m c main_v20 y
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 600 + 1 * (y 1).val = (y 1).val; rw [e5]; omega

/-- The specification at the arguments of a launch. -/
abbrev spec (c : Dev nD) : S100000x1200.Idx → EReal :=
  Cert.Spec.G (m ((c : Thread nD τ).loc main_arg0)) (m ((c : Thread nD τ).loc main_arg1))
    (kSpecT (m ((c : Thread nD τ).loc main_arg2)) (m ((c : Thread nD τ).loc main_arg3)) (m ((c : Thread nD τ).loc main_arg4)))

set_option maxHeartbeats 4000000 in
/-- WHAT POINT `t` WRITES BACK is block `t` of the specification. -/
theorem flushed_eq (c : Dev nD) (t : Fin cfg0.N) :
    (dats m 0 c).flushed 3 t = ((cfg0.win 3).blk t).view.read (Elt Ideal) (spec m c) := by
  rw [Value.flushed3]
  unfold out0_3
  rw [View.canon_unit_zero hz]
  simp only [View.ld_unit_zero (S := S2000x8) hz, View.ld_unit_zero (S := S8x600) hz, View.ld_unit_zero (S := S1x600) hz]
  rw [pay_eq (iblk m c 0 t) (iblk m c 1 t) (iblk m c 2 t), iblk1_eq m c t, iblk2_eq m c t, V_v12 m c, V_v20 m c, kScale_eq]
  obtain ⟨-, -, -, -, -, -, e6, e7⟩ := idx_facts t
  funext j
  obtain ⟨r, q, rfl⟩ : ∃ (r : Fin 2000) (q : Fin 1200), j = ix2 r q := ⟨j 0, j 1, eq_ix2 j⟩
  have hr := r.isLt
  have ht := t_lt t
  have hemb : ((cfg0.win 3).blk t).view.emb (ix2 r q)
      = (ix2 (⟨2000 * t.val + r.val, by omega⟩ : Fin 100000) q : S100000x1200.Idx) := by
    funext a
    apply Fin.ext
    match a with
    | ⟨0, _⟩ => show win0_3.index t (0 : Fin 2) * 2000 + 1 * r.val = 2000 * t.val + r.val; rw [e6]; omega
    | ⟨1, _⟩ => show win0_3.index t (1 : Fin 2) * 1200 + 1 * q.val = q.val; rw [e7]; omega
  show interleave (feat Ideal.cos (iblk m c 0 t) _ _) (feat Ideal.sin (iblk m c 0 t) _ _) (ix2 r q)
    = spec m c (((cfg0.win 3).blk t).view.emb (ix2 r q))
  rw [hemb]
  exact interleave_rows _ _ _ _ _ _
    (fun s => feat_rows Ideal.cos _ _ _ _ _ _ (fun d => iblk0_apply m c t r d) s)
    (fun s => feat_rows Ideal.sin _ _ _ _ _ _ (fun d => iblk0_apply m c t r d) s) q

/-- An index of the array is in point `t`'s block iff each coordinate is in the block's range on its axis. -/
theorem mem_blk (t : Fin cfg0.N) (i : S100000x1200.Idx) :
    i ∈ ((cfg0.win 3).blk t).view.set ↔ ∀ a : Fin 2, win0_3.index t a * S2000x1200.size a ≤ (i a).val
      ∧ (i a).val < win0_3.index t a * S2000x1200.size a + S2000x1200.size a := by
  show i ∈ ((View.whole main_v21).slice (win0_3.rect t)).set ↔ _
  rw [View.set_slice_whole, Rect.mem_set_unit]
  exact Iff.rfl

/-- Every index of the result is in the block of the point that holds its row. -/
theorem cover (i : S100000x1200.Idx) : ∃ t : Fin cfg0.N, (cfg0.win 3).flush t = true ∧ i ∈ ((cfg0.win 3).blk t).view.set := by
  have hN : cfg0.N = 50 := N_0
  have h0 : (i 0).val < 100000 := (i 0).isLt
  have h1 : (i 1).val < 1200 := (i 1).isLt
  have htl : (i 0).val / 2000 < cfg0.N := by rw [hN]; omega
  obtain ⟨-, -, -, -, -, -, e6, e7⟩ := idx_facts ⟨(i 0).val / 2000, htl⟩
  refine ⟨⟨(i 0).val / 2000, htl⟩, flush0_3 _, ?_⟩
  rw [mem_blk]
  intro a
  match a with
  | ⟨0, _⟩ =>
    show win0_3.index ⟨(i 0).val / 2000, htl⟩ (0 : Fin 2) * 2000 ≤ (i 0).val
      ∧ (i 0).val < win0_3.index ⟨(i 0).val / 2000, htl⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, htl⟩ (1 : Fin 2) * 1200 ≤ (i 1).val
      ∧ (i 1).val < win0_3.index ⟨(i 0).val / 2000, htl⟩ (1 : Fin 2) * 1200 + 1200
    rw [e7]
    omega

/-- THE ARRAY after the run is the specification. -/
theorem final (c : Dev nD) : (dats m 0 c).arrAt 3 cfg0.N = spec m c :=
  (dats m 0 c).arrAt_eq_of_cover 3 (spec m c) (fun t _ => flushed_eq m c t) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v21) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.RefRun.lean ====
import proofs.«164334_j51230369907346_2_alg».proof.Proof.Gen.ReferenceIdeal
import Idealize.ShloMosaic.Lib.StableHlo.Run

/-!
The run of the reference program, read back as a closed term of its five argument arrays.

The program is a straight line of host operations. Written as a list, its run leaves every buffer at the
composition of the operations that wrote it; the result buffer is then the concatenation, along the feature
axis, of twelve blocks: for each of six components, the cosine and the sine of the phase matrix restricted
to the component's columns, scaled by the component's amplitude.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

set_option maxRecDepth 8192 in
/-- The program's operations, in order. -/
abbrev ops : List (HloOp τ sig (Elt F)) :=
  [ nullary main_c (fun i => lit0 (S600.rowMajor i)),
    nullary main_c_0 (constantI S600 1 0#1),
    nullary main_c_1 (constantI S600 1 0#1),
    nullary main_c_2 (constantI S_ 32 6#32),
    unary main_c_2 main_v0 (broadcastInDim S600 ![] bcast_S_S600 : (⟨S_, .i32⟩ : BufTy).Contents (Elt F) → (⟨S600, .i32⟩ : BufTy).Contents (Elt F)),
    binary main_c main_v0 main_v1 (addi : (⟨S600, .i32⟩ : BufTy).Contents (Elt F) → (⟨S600, .i32⟩ : BufTy).Contents (Elt F) → (⟨S600, .i32⟩ : BufTy).Contents (Elt F)),
    ternary main_c_0 main_v1 main_c main_v2 (select : (⟨S600, .i1⟩ : BufTy).Contents (Elt F) → (⟨S600, .i32⟩ : BufTy).Contents (Elt F) → (⟨S600, .i32⟩ : BufTy).Contents (Elt F) → (⟨S600, .i32⟩ : BufTy).Contents (Elt F)),
    unary main_v2 main_v3 (broadcastInDim S600x1 ![0] bcast_S600_S600x1_0 : (⟨S600, .i32⟩ : BufTy).Contents (Elt F) → (⟨S600x1, .i32⟩ : BufTy).Contents (Elt F)),
    binary main_arg2 main_v3 main_v4 ((fun x i => Host.gather gather_S6x8_S600x1_S600x8_1_0_n_n_0_1_18 x i) : (⟨S6x8, .f32⟩ : BufTy).Contents (Elt F) → (⟨S600x1, .i32⟩ : BufTy).Contents (Elt F) → (⟨S600x8, .f32⟩ : BufTy).Contents (Elt F)),
    nullary main_c_3 (constantI S_ 32 6#32),
    unary main_c_3 main_v5 (broadcastInDim S600 ![] bcast_S_S600 : (⟨S_, .i32⟩ : BufTy).Contents (Elt F) → (⟨S600, .i32⟩ : BufTy).Contents (Elt F)),
    binary main_c main_v5 main_v6 (addi : (⟨S600, .i32⟩ : BufTy).Contents (Elt F) → (⟨S600, .i32⟩ : BufTy).Contents (Elt F) → (⟨S600, .i32⟩ : BufTy).Contents (Elt F)),
    ternary main_c_1 main_v6 main_c main_v7 (select : (⟨S600, .i1⟩ : BufTy).Contents (Elt F) → (⟨S600, .i32⟩ : BufTy).Contents (Elt F) → (⟨S600, .i32⟩ : BufTy).Contents (Elt F) → (⟨S600, .i32⟩ : BufTy).Contents (Elt F)),
    unary main_v7 main_v8 (broadcastInDim S600x1 ![0] bcast_S600_S600x1_0 : (⟨S600, .i32⟩ : BufTy).Contents (Elt F) → (⟨S600x1, .i32⟩ : BufTy).Contents (Elt F)),
    binary main_arg3 main_v8 main_v9 ((fun x i => Host.gather gather_S6x8_S600x1_S600x8_1_0_n_n_0_1_18 x i) : (⟨S6x8, .f32⟩ : BufTy).Contents (Elt F) → (⟨S600x1, .i32⟩ : BufTy).Contents (Elt F) → (⟨S600x8, .f32⟩ : BufTy).Contents (Elt F)),
    binary main_v9 main_arg4 main_v10 (mulf : (⟨S600x8, .f32⟩ : BufTy).Contents (Elt F) → (⟨S600x8, .f32⟩ : BufTy).Contents (Elt F) → (⟨S600x8, .f32⟩ : BufTy).Contents (Elt F)),
    binary main_v4 main_v10 main_v11 (addf : (⟨S600x8, .f32⟩ : BufTy).Contents (Elt F) → (⟨S600x8, .f32⟩ : BufTy).Contents (Elt F) → (⟨S600x8, .f32⟩ : BufTy).Contents (Elt F)),
    unary main_v11 main_v12 ((transpose S8x600 [1, 0] · transposes_S600x8_S8x600_1_0) : (⟨S600x8, .f32⟩ : BufTy).Contents (Elt F) → (⟨S8x600, .f32⟩ : BufTy).Contents (Elt F)),
    binary main_arg0 main_v12 main_v13 ((fun l r => Host.dotGeneral dot_S100000x8_S8x600_S100000x600_1_0_0_1_n_n none l r) : (⟨S100000x8, .f32⟩ : BufTy).Contents (Elt F) → (⟨S8x600, .f32⟩ : BufTy).Contents (Elt F) → (⟨S100000x600, .f32⟩ : BufTy).Contents (Elt F)),
    nullary main_cst (constant S_ .f32 0x40C90FDB#32),
    unary main_cst main_v14 (broadcastInDim S100000x600 ![] bcast_S_S100000x600 : (⟨S_, .f32⟩ : BufTy).Contents (Elt F) → (⟨S100000x600, .f32⟩ : BufTy).Contents (Elt F)),
    binary main_v14 main_v13 main_v15 (mulf : (⟨S100000x600, .f32⟩ : BufTy).Contents (Elt F) → (⟨S100000x600, .f32⟩ : BufTy).Contents (Elt F) → (⟨S100000x600, .f32⟩ : BufTy).Contents (Elt F)),
    unary main_v15 main_v16 (Host.cos : (⟨S100000x600, .f32⟩ : BufTy).Contents (Elt F) → (⟨S100000x600, .f32⟩ : BufTy).Contents (Elt F)),
    unary main_v15 main_v17 (Host.sin : (⟨S100000x600, .f32⟩ : BufTy).Contents (Elt F) → (⟨S100000x600, .f32⟩ : BufTy).Contents (Elt F)),
    unary main_arg1 main_v18 ((extractStridedSlice S1 ![0] · slices_S6_S1_0) : (⟨S6, .f32⟩ : BufTy).Contents (Elt F) → (⟨S1, .f32⟩ : BufTy).Contents (Elt F)),
    reshape main_v18 main_v19 rfl shapeCasts_S1_S_,
    nullary main_cst_4 (constant S_ .f32 0x43160000#32),
    binary main_v19 main_cst_4 main_v20 (Host.divf : (⟨S_, .f32⟩ : BufTy).Contents (Elt F) → (⟨S_, .f32⟩ : BufTy).Contents (Elt F) → (⟨S_, .f32⟩ : BufTy).Contents (Elt F)),
    unary main_v20 main_v21 (Host.sqrt : (⟨S_, .f32⟩ : BufTy).Contents (Elt F) → (⟨S_, .f32⟩ : BufTy).Contents (Elt F)),
    unary main_v16 main_v22 ((extractStridedSlice S100000x150 ![0, 0] · slices_S100000x600_S100000x150_0_0) : (⟨S100000x600, .f32⟩ : BufTy).Contents (Elt F) → (⟨S100000x150, .f32⟩ : BufTy).Contents (Elt F)),
    unary main_v21 main_v23 (broadcastInDim S100000x150 ![] bcast_S_S100000x150 : (⟨S_, .f32⟩ : BufTy).Contents (Elt F) → (⟨S100000x150, .f32⟩ : BufTy).Contents (Elt F)),
    binary main_v23 main_v22 main_v24 (mulf : (⟨S100000x150, .f32⟩ : BufTy).Contents (Elt F) → (⟨S100000x150, .f32⟩ : BufTy).Contents (Elt F) → (⟨S100000x150, .f32⟩ : BufTy).Contents (Elt F)),
    unary main_v17 main_v25 ((extractStridedSlice S100000x150 ![0, 0] · slices_S100000x600_S100000x150_0_0) : (⟨S100000x600, .f32⟩ : BufTy).Contents (Elt F) → (⟨S100000x150, .f32⟩ : BufTy).Contents (Elt F)),
    unary main_v21 main_v26 (broadcastInDim S100000x150 ![] bcast_S_S100000x150 : (⟨S_, .f32⟩ : BufTy).Contents (Elt F) → (⟨S100000x150, .f32⟩ : BufTy).Contents (Elt F)),
    binary main_v26 main_v25 main_v27 (mulf : (⟨S100000x150, .f32⟩ : BufTy).Contents (Elt F) → (⟨S100000x150, .f32⟩ : BufTy).Contents (Elt F) → (⟨S100000x150, .f32⟩ : BufTy).Contents (Elt F)),
    unary main_arg1 main_v28 ((extractStridedSlice S1 ![1] · slices_S6_S1_1) : (⟨S6, .f32⟩ : BufTy).Contents (Elt F) → (⟨S1, .f32⟩ : BufTy).Contents (Elt F)),
    reshape main_v28 main_v29 rfl shapeCasts_S1_S_,
    nullary main_cst_5 (constant S_ .f32 0x42F00000#32),
    binary main_v29 main_cst_5 main_v30 (Host.divf : (⟨S_, .f32⟩ : BufTy).Contents (Elt F) → (⟨S_, .f32⟩ : BufTy).Contents (Elt F) → (⟨S_, .f32⟩ : BufTy).Contents (Elt F)),
    unary main_v30 main_v31 (Host.sqrt : (⟨S_, .f32⟩ : BufTy).Contents (Elt F) → (⟨S_, .f32⟩ : BufTy).Contents (Elt F)),
    unary main_v16 main_v32 ((extractStridedSlice S100000x120 ![0, 150] · slices_S100000x600_S100000x120_0_150) : (⟨S100000x600, .f32⟩ : BufTy).Contents (Elt F) → (⟨S100000x120, .f32⟩ : BufTy).Contents (Elt F)),
    unary main_v31 main_v33 (broadcastInDim S100000x120 ![] bcast_S_S100000x120 : (⟨S_, .f32⟩ : BufTy).Contents (Elt F) → (⟨S100000x120, .f32⟩ : BufTy).Contents (Elt F)),
    binary main_v33 main_v32 main_v34 (mulf : (⟨S100000x120, .f32⟩ : BufTy).Contents (Elt F) → (⟨S100000x120, .f32⟩ : BufTy).Contents (Elt F) → (⟨S100000x120, .f32⟩ : BufTy).Contents (Elt F)),
    unary main_v17 main_v35 ((extractStridedSlice S100000x120 ![0, 150] · slices_S100000x600_S100000x120_0_150) : (⟨S100000x600, .f32⟩ : BufTy).Contents (Elt F) → (⟨S100000x120, .f32⟩ : BufTy).Contents (Elt F)),
    unary main_v31 main_v36 (broadcastInDim S100000x120 ![] bcast_S_S100000x120 : (⟨S_, .f32⟩ : BufTy).Contents (Elt F) → (⟨S100000x120, .f32⟩ : BufTy).Contents (Elt F)),
    binary main_v36 main_v35 main_v37 (mulf : (⟨S100000x120, .f32⟩ : BufTy).Contents (Elt F) → (⟨S100000x120, .f32⟩ : BufTy).Contents (Elt F) → (⟨S100000x120, .f32⟩ : BufTy).Contents (Elt F)),
    unary main_arg1 main_v38 ((extractStridedSlice S1 ![2] · slices_S6_S1_2) : (⟨S6, .f32⟩ : BufTy).Contents (Elt F) → (⟨S1, .f32⟩ : BufTy).Contents (Elt F)),
    reshape main_v38 main_v39 rfl shapeCasts_S1_S_,
    nullary main_cst_6 (constant S_ .f32 0x42C80000#32),
    binary main_v39 main_cst_6 main_v40 (Host.divf : (⟨S_, .f32⟩ : BufTy).Contents (Elt F) → (⟨S_, .f32⟩ : BufTy).Contents (Elt F) → (⟨S_, .f32⟩ : BufTy).Contents (Elt F)),
    unary main_v40 main_v41 (Host.sqrt : (⟨S_, .f32⟩ : BufTy).Contents (Elt F) → (⟨S_, .f32⟩ : BufTy).Contents (Elt F)),
    unary main_v16 main_v42 ((extractStridedSlice S100000x100 ![0, 270] · slices_S100000x600_S100000x100_0_270) : (⟨S100000x600, .f32⟩ : BufTy).Contents (Elt F) → (⟨S100000x100, .f32⟩ : BufTy).Contents (Elt F)),
    unary main_v41 main_v43 (broadcastInDim S100000x100 ![] bcast_S_S100000x100 : (⟨S_, .f32⟩ : BufTy).Contents (Elt F) → (⟨S100000x100, .f32⟩ : BufTy).Contents (Elt F)),
    binary main_v43 main_v42 main_v44 (mulf : (⟨S100000x100, .f32⟩ : BufTy).Contents (Elt F) → (⟨S100000x100, .f32⟩ : BufTy).Contents (Elt F) → (⟨S100000x100, .f32⟩ : BufTy).Contents (Elt F)),
    unary main_v17 main_v45 ((extractStridedSlice S100000x100 ![0, 270] · slices_S100000x600_S100000x100_0_270) : (⟨S100000x600, .f32⟩ : BufTy).Contents (Elt F) → (⟨S100000x100, .f32⟩ : BufTy).Contents (Elt F)),
    unary main_v41 main_v46 (broadcastInDim S100000x100 ![] bcast_S_S100000x100 : (⟨S_, .f32⟩ : BufTy).Contents (Elt F) → (⟨S100000x100, .f32⟩ : BufTy).Contents (Elt F)),
    binary main_v46 main_v45 main_v47 (mulf : (⟨S100000x100, .f32⟩ : BufTy).Contents (Elt F) → (⟨S100000x100, .f32⟩ : BufTy).Contents (Elt F) → (⟨S100000x100, .f32⟩ : BufTy).Contents (Elt F)),
    unary main_arg1 main_v48 ((extractStridedSlice S1 ![3] · slices_S6_S1_3) : (⟨S6, .f32⟩ : BufTy).Contents (Elt F) → (⟨S1, .f32⟩ : BufTy).Contents (Elt F)),
    reshape main_v48 main_v49 rfl shapeCasts_S1_S_,
    nullary main_cst_7 (constant S_ .f32 0x42B40000#32),
    binary main_v49 main_cst_7 main_v50 (Host.divf : (⟨S_, .f32⟩ : BufTy).Contents (Elt F) → (⟨S_, .f32⟩ : BufTy).Contents (Elt F) → (⟨S_, .f32⟩ : BufTy).Contents (Elt F)),
    unary main_v50 main_v51 (Host.sqrt : (⟨S_, .f32⟩ : BufTy).Contents (Elt F) → (⟨S_, .f32⟩ : BufTy).Contents (Elt F)),
    unary main_v16 main_v52 ((extractStridedSlice S100000x90 ![0, 370] · slices_S100000x600_S100000x90_0_370) : (⟨S100000x600, .f32⟩ : BufTy).Contents (Elt F) → (⟨S100000x90, .f32⟩ : BufTy).Contents (Elt F)),
    unary main_v51 main_v53 (broadcastInDim S100000x90 ![] bcast_S_S100000x90 : (⟨S_, .f32⟩ : BufTy).Contents (Elt F) → (⟨S100000x90, .f32⟩ : BufTy).Contents (Elt F)),
    binary main_v53 main_v52 main_v54 (mulf : (⟨S100000x90, .f32⟩ : BufTy).Contents (Elt F) → (⟨S100000x90, .f32⟩ : BufTy).Contents (Elt F) → (⟨S100000x90, .f32⟩ : BufTy).Contents (Elt F)),
    unary main_v17 main_v55 ((extractStridedSlice S100000x90 ![0, 370] · slices_S100000x600_S100000x90_0_370) : (⟨S100000x600, .f32⟩ : BufTy).Contents (Elt F) → (⟨S100000x90, .f32⟩ : BufTy).Contents (Elt F)),
    unary main_v51 main_v56 (broadcastInDim S100000x90 ![] bcast_S_S100000x90 : (⟨S_, .f32⟩ : BufTy).Contents (Elt F) → (⟨S100000x90, .f32⟩ : BufTy).Contents (Elt F)),
    binary main_v56 main_v55 main_v57 (mulf : (⟨S100000x90, .f32⟩ : BufTy).Contents (Elt F) → (⟨S100000x90, .f32⟩ : BufTy).Contents (Elt F) → (⟨S100000x90, .f32⟩ : BufTy).Contents (Elt F)),
    unary main_arg1 main_v58 ((extractStridedSlice S1 ![4] · slices_S6_S1_4) : (⟨S6, .f32⟩ : BufTy).Contents (Elt F) → (⟨S1, .f32⟩ : BufTy).Contents (Elt F)),
    reshape main_v58 main_v59 rfl shapeCasts_S1_S_,
    nullary main_cst_8 (constant S_ .f32 0x42A00000#32),
    binary main_v59 main_cst_8 main_v60 (Host.divf : (⟨S_, .f32⟩ : BufTy).Contents (Elt F) → (⟨S_, .f32⟩ : BufTy).Contents (Elt F) → (⟨S_, .f32⟩ : BufTy).Contents (Elt F)),
    unary main_v60 main_v61 (Host.sqrt : (⟨S_, .f32⟩ : BufTy).Contents (Elt F) → (⟨S_, .f32⟩ : BufTy).Contents (Elt F)),
    unary main_v16 main_v62 ((extractStridedSlice S100000x80 ![0, 460] · slices_S100000x600_S100000x80_0_460) : (⟨S100000x600, .f32⟩ : BufTy).Contents (Elt F) → (⟨S100000x80, .f32⟩ : BufTy).Contents (Elt F)),
    unary main_v61 main_v63 (broadcastInDim S100000x80 ![] bcast_S_S100000x80 : (⟨S_, .f32⟩ : BufTy).Contents (Elt F) → (⟨S100000x80, .f32⟩ : BufTy).Contents (Elt F)),
    binary main_v63 main_v62 main_v64 (mulf : (⟨S100000x80, .f32⟩ : BufTy).Contents (Elt F) → (⟨S100000x80, .f32⟩ : BufTy).Contents (Elt F) → (⟨S100000x80, .f32⟩ : BufTy).Contents (Elt F)),
    unary main_v17 main_v65 ((extractStridedSlice S100000x80 ![0, 460] · slices_S100000x600_S100000x80_0_460) : (⟨S100000x600, .f32⟩ : BufTy).Contents (Elt F) → (⟨S100000x80, .f32⟩ : BufTy).Contents (Elt F)),
    unary main_v61 main_v66 (broadcastInDim S100000x80 ![] bcast_S_S100000x80 : (⟨S_, .f32⟩ : BufTy).Contents (Elt F) → (⟨S100000x80, .f32⟩ : BufTy).Contents (Elt F)),
    binary main_v66 main_v65 main_v67 (mulf : (⟨S100000x80, .f32⟩ : BufTy).Contents (Elt F) → (⟨S100000x80, .f32⟩ : BufTy).Contents (Elt F) → (⟨S100000x80, .f32⟩ : BufTy).Contents (Elt F)),
    unary main_arg1 main_v68 ((extractStridedSlice S1 ![5] · slices_S6_S1_5) : (⟨S6, .f32⟩ : BufTy).Contents (Elt F) → (⟨S1, .f32⟩ : BufTy).Contents (Elt F)),
    reshape main_v68 main_v69 rfl shapeCasts_S1_S_,
    nullary main_cst_9 (constant S_ .f32 0x42700000#32),
    binary main_v69 main_cst_9 main_v70 (Host.divf : (⟨S_, .f32⟩ : BufTy).Contents (Elt F) → (⟨S_, .f32⟩ : BufTy).Contents (Elt F) → (⟨S_, .f32⟩ : BufTy).Contents (Elt F)),
    unary main_v70 main_v71 (Host.sqrt : (⟨S_, .f32⟩ : BufTy).Contents (Elt F) → (⟨S_, .f32⟩ : BufTy).Contents (Elt F)),
    unary main_v16 main_v72 ((extractStridedSlice S100000x60 ![0, 540] · slices_S100000x600_S100000x60_0_540) : (⟨S100000x600, .f32⟩ : BufTy).Contents (Elt F) → (⟨S100000x60, .f32⟩ : BufTy).Contents (Elt F)),
    unary main_v71 main_v73 (broadcastInDim S100000x60 ![] bcast_S_S100000x60 : (⟨S_, .f32⟩ : BufTy).Contents (Elt F) → (⟨S100000x60, .f32⟩ : BufTy).Contents (Elt F)),
    binary main_v73 main_v72 main_v74 (mulf : (⟨S100000x60, .f32⟩ : BufTy).Contents (Elt F) → (⟨S100000x60, .f32⟩ : BufTy).Contents (Elt F) → (⟨S100000x60, .f32⟩ : BufTy).Contents (Elt F)),
    unary main_v17 main_v75 ((extractStridedSlice S100000x60 ![0, 540] · slices_S100000x600_S100000x60_0_540) : (⟨S100000x600, .f32⟩ : BufTy).Contents (Elt F) → (⟨S100000x60, .f32⟩ : BufTy).Contents (Elt F)),
    unary main_v71 main_v76 (broadcastInDim S100000x60 ![] bcast_S_S100000x60 : (⟨S_, .f32⟩ : BufTy).Contents (Elt F) → (⟨S100000x60, .f32⟩ : BufTy).Contents (Elt F)),
    binary main_v76 main_v75 main_v77 (mulf : (⟨S100000x60, .f32⟩ : BufTy).Contents (Elt F) → (⟨S100000x60, .f32⟩ : BufTy).Contents (Elt F) → (⟨S100000x60, .f32⟩ : BufTy).Contents (Elt F)),
    nary ![main_v24, main_v27, main_v34, main_v37, main_v44, main_v47, main_v54, main_v57, main_v64, main_v67, main_v74, main_v77] main_v78 (fun u => concatenate S100000x1200 1 [⟨S100000x150, u 0⟩, ⟨S100000x150, u 1⟩, ⟨S100000x120, u 2⟩, ⟨S100000x120, u 3⟩, ⟨S100000x100, u 4⟩, ⟨S100000x100, u 5⟩, ⟨S100000x90, u 6⟩, ⟨S100000x90, u 7⟩, ⟨S100000x80, u 8⟩, ⟨S100000x80, u 9⟩, ⟨S100000x60, u 10⟩, ⟨S100000x60, u 11⟩] concatenates_S100000x150_S100000x150_S100000x120_S100000x120_S100000x100_S100000x100_S100000x90_S100000x90_S100000x80_S100000x80_S100000x60_S100000x60_S100000x1200_d1) ]

/-! ## The result as a function of the arguments -/

/-- The component index of each of the 600 spectral samples, as a column: the constant table, passed through
    the wrap-around of negative indices (the mask is constantly false, so the table itself is selected). -/
def idxCol : IVec S600x1 32 :=
  broadcastInDim S600x1 ![0] bcast_S600_S600x1_0
    (select (constantI S600 1 0#1)
      (addi (fun i => lit0 (S600.rowMajor i)) (broadcastInDim S600 ![] bcast_S_S600 (constantI S_ 32 6#32)))
      (fun i => lit0 (S600.rowMajor i)))

/-- The spectral points, one column per sample: each sample's component mean plus its component scale times
    its noise row, transposed to features by samples. -/
def specT (mu sd : FVec F S6x8 .f32) (ep : FVec F S600x8 .f32) : FVec F S8x600 .f32 :=
  transpose S8x600 [1, 0]
    (addf (Host.gather gather_S6x8_S600x1_S600x8_1_0_n_n_0_1_18 mu idxCol)
      (mulf (Host.gather gather_S6x8_S600x1_S600x8_1_0_n_n_0_1_18 sd idxCol) ep))
    transposes_S600x8_S8x600_1_0

/-- The phase matrix: 2π times the matrix product of the inputs with the spectral points. -/
def phase (x : FVec F S100000x8 .f32) (ST : FVec F S8x600 .f32) : FVec F S100000x600 .f32 :=
  mulf (broadcastInDim S100000x600 ![] bcast_S_S100000x600 (constant S_ .f32 0x40C90FDB#32))
    (Host.dotGeneral dot_S100000x8_S8x600_S100000x600_1_0_0_1_n_n none x ST)

/-- The amplitude of component 0: the square root of its weight over its sample count 150. -/
def amp0 (w : FVec F S6 .f32) : FVec F S_ .f32 :=
  Host.sqrt (Host.divf (shapeCast S_ (extractStridedSlice S1 ![0] w slices_S6_S1_0) shapeCasts_S1_S_) (constant S_ .f32 0x43160000#32))

/-- The amplitude of component 1: the square root of its weight over its sample count 120. -/
def amp1 (w : FVec F S6 .f32) : FVec F S_ .f32 :=
  Host.sqrt (Host.divf (shapeCast S_ (extractStridedSlice S1 ![1] w slices_S6_S1_1) shapeCasts_S1_S_) (constant S_ .f32 0x42F00000#32))

/-- The amplitude of component 2: the square root of its weight over its sample count 100. -/
def amp2 (w : FVec F S6 .f32) : FVec F S_ .f32 :=
  Host.sqrt (Host.divf (shapeCast S_ (extractStridedSlice S1 ![2] w slices_S6_S1_2) shapeCasts_S1_S_) (constant S_ .f32 0x42C80000#32))

/-- The amplitude of component 3: the square root of its weight over its sample count 90. -/
def amp3 (w : FVec F S6 .f32) : FVec F S_ .f32 :=
  Host.sqrt (Host.divf (shapeCast S_ (extractStridedSlice S1 ![3] w slices_S6_S1_3) shapeCasts_S1_S_) (constant S_ .f32 0x42B40000#32))

/-- The amplitude of component 4: the square root of its weight over its sample count 80. -/
def amp4 (w : FVec F S6 .f32) : FVec F S_ .f32 :=
  Host.sqrt (Host.divf (shapeCast S_ (extractStridedSlice S1 ![4] w slices_S6_S1_4) shapeCasts_S1_S_) (constant S_ .f32 0x42A00000#32))

/-- The amplitude of component 5: the square root of its weight over its sample count 60. -/
def amp5 (w : FVec F S6 .f32) : FVec F S_ .f32 :=
  Host.sqrt (Host.divf (shapeCast S_ (extractStridedSlice S1 ![5] w slices_S6_S1_5) shapeCasts_S1_S_) (constant S_ .f32 0x42700000#32))

/-- The program's result: for each component in turn its amplitude times the cosines, then times the sines, of
    the phase matrix's columns belonging to the component, the twelve blocks side by side. -/
def refOut (x : FVec F S100000x8 .f32) (w : FVec F S6 .f32) (mu sd : FVec F S6x8 .f32) (ep : FVec F S600x8 .f32) :
    FVec F S100000x1200 .f32 :=
  concatenate S100000x1200 1
    [
      ⟨S100000x150, mulf (broadcastInDim S100000x150 ![] bcast_S_S100000x150 (amp0 w)) (extractStridedSlice S100000x150 ![0, 0] (Host.cos (phase x (specT mu sd ep))) slices_S100000x600_S100000x150_0_0)⟩,
      ⟨S100000x150, mulf (broadcastInDim S100000x150 ![] bcast_S_S100000x150 (amp0 w)) (extractStridedSlice S100000x150 ![0, 0] (Host.sin (phase x (specT mu sd ep))) slices_S100000x600_S100000x150_0_0)⟩,
      ⟨S100000x120, mulf (broadcastInDim S100000x120 ![] bcast_S_S100000x120 (amp1 w)) (extractStridedSlice S100000x120 ![0, 150] (Host.cos (phase x (specT mu sd ep))) slices_S100000x600_S100000x120_0_150)⟩,
      ⟨S100000x120, mulf (broadcastInDim S100000x120 ![] bcast_S_S100000x120 (amp1 w)) (extractStridedSlice S100000x120 ![0, 150] (Host.sin (phase x (specT mu sd ep))) slices_S100000x600_S100000x120_0_150)⟩,
      ⟨S100000x100, mulf (broadcastInDim S100000x100 ![] bcast_S_S100000x100 (amp2 w)) (extractStridedSlice S100000x100 ![0, 270] (Host.cos (phase x (specT mu sd ep))) slices_S100000x600_S100000x100_0_270)⟩,
      ⟨S100000x100, mulf (broadcastInDim S100000x100 ![] bcast_S_S100000x100 (amp2 w)) (extractStridedSlice S100000x100 ![0, 270] (Host.sin (phase x (specT mu sd ep))) slices_S100000x600_S100000x100_0_270)⟩,
      ⟨S100000x90, mulf (broadcastInDim S100000x90 ![] bcast_S_S100000x90 (amp3 w)) (extractStridedSlice S100000x90 ![0, 370] (Host.cos (phase x (specT mu sd ep))) slices_S100000x600_S100000x90_0_370)⟩,
      ⟨S100000x90, mulf (broadcastInDim S100000x90 ![] bcast_S_S100000x90 (amp3 w)) (extractStridedSlice S100000x90 ![0, 370] (Host.sin (phase x (specT mu sd ep))) slices_S100000x600_S100000x90_0_370)⟩,
      ⟨S100000x80, mulf (broadcastInDim S100000x80 ![] bcast_S_S100000x80 (amp4 w)) (extractStridedSlice S100000x80 ![0, 460] (Host.cos (phase x (specT mu sd ep))) slices_S100000x600_S100000x80_0_460)⟩,
      ⟨S100000x80, mulf (broadcastInDim S100000x80 ![] bcast_S_S100000x80 (amp4 w)) (extractStridedSlice S100000x80 ![0, 460] (Host.sin (phase x (specT mu sd ep))) slices_S100000x600_S100000x80_0_460)⟩,
      ⟨S100000x60, mulf (broadcastInDim S100000x60 ![] bcast_S_S100000x60 (amp5 w)) (extractStridedSlice S100000x60 ![0, 540] (Host.cos (phase x (specT mu sd ep))) slices_S100000x600_S100000x60_0_540)⟩,
      ⟨S100000x60, mulf (broadcastInDim S100000x60 ![] bcast_S_S100000x60 (amp5 w)) (extractStridedSlice S100000x60 ![0, 540] (Host.sin (phase x (specT mu sd ep))) slices_S100000x600_S100000x60_0_540)⟩ ]
    concatenates_S100000x150_S100000x150_S100000x120_S100000x120_S100000x100_S100000x100_S100000x90_S100000x90_S100000x80_S100000x80_S100000x60_S100000x60_S100000x1200_d1

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., nullary_bufs_sub .., unary_bufs_sub .., binary_bufs_sub .., unary_bufs_sub .., unary_bufs_sub .., unary_bufs_sub .., reshape_bufs_sub .., nullary_bufs_sub .., binary_bufs_sub .., unary_bufs_sub .., unary_bufs_sub .., unary_bufs_sub .., binary_bufs_sub .., unary_bufs_sub .., unary_bufs_sub .., binary_bufs_sub .., unary_bufs_sub .., reshape_bufs_sub .., nullary_bufs_sub .., binary_bufs_sub .., unary_bufs_sub .., unary_bufs_sub .., unary_bufs_sub .., binary_bufs_sub .., unary_bufs_sub .., unary_bufs_sub .., binary_bufs_sub .., unary_bufs_sub .., reshape_bufs_sub .., nullary_bufs_sub .., binary_bufs_sub .., unary_bufs_sub .., unary_bufs_sub .., unary_bufs_sub .., binary_bufs_sub .., unary_bufs_sub .., unary_bufs_sub .., binary_bufs_sub .., unary_bufs_sub .., reshape_bufs_sub .., nullary_bufs_sub .., binary_bufs_sub .., unary_bufs_sub .., unary_bufs_sub .., unary_bufs_sub .., binary_bufs_sub .., unary_bufs_sub .., unary_bufs_sub .., binary_bufs_sub .., unary_bufs_sub .., reshape_bufs_sub .., nullary_bufs_sub .., binary_bufs_sub .., unary_bufs_sub .., unary_bufs_sub .., unary_bufs_sub .., binary_bufs_sub .., unary_bufs_sub .., unary_bufs_sub .., binary_bufs_sub .., unary_bufs_sub .., reshape_bufs_sub .., nullary_bufs_sub .., binary_bufs_sub .., unary_bufs_sub .., unary_bufs_sub .., unary_bufs_sub .., binary_bufs_sub .., unary_bufs_sub .., unary_bufs_sub .., binary_bufs_sub .., nary_bufs_sub ..⟩

set_option maxRecDepth 8192 in
set_option maxHeartbeats 36800000 in
/-- On every device, for any float values, from any memory with zero counters: every weakly fair execution of
    the program terminates with the result buffer at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v78).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefRun

end
-- ==== Proof.RefValue.lean ====
import proofs.«164334_j51230369907346_2_alg».proof.Proof.RefRun
import proofs.«164334_j51230369907346_2_alg».proof.Proof.Bands
import proofs.«164334_j51230369907346_2_alg».proof.Proof.Feat
import proofs.«164334_j51230369907346_2_alg».proof.Proof.Amp

/-!
The reference's result is the interleaved feature array.

On the extended reals the program's result — twelve column bands laid side by side, for each of the six components the
cosines and then the sines of the phase matrix on the component's columns, each band scaled by the component's
amplitude — is the interleaving of two feature arrays: the cosine features and the sine features, every column scaled
by its sample's amplitude. The cosine and the sine of the phase are read as functions of the matrix product; each
component's scalar amplitude is the amplitude row on the component's band of samples, so scaling a band by the scalar
is taking the band of the array scaled column by column; and the twelve bands side by side are the interleaving.
-/

noncomputable section

namespace Cert.ReferenceIdeal.RefValue

open Cert.ReferenceIdeal Cert.ReferenceIdeal.Gen Cert.ReferenceIdeal.RefRun Idealize.ShloMosaic Idealize.ShloMosaic.ValueIdx Cert.Bands Cert.Feat Cert.Amp Cert.Dense

/-! ## The phase's cosine and sine -/

/-- The cosine of the phase matrix, as a function of the matrix product. -/
theorem phase_cos (x : FVec Ideal S100000x8 .f32) (ST : FVec Ideal S8x600 .f32) :
    Host.cos (phase (F := Ideal) x ST) = wave Ideal.cos x ST :=
  hostWave_cos dot_S100000x8_S8x600_S100000x600_1_0_0_1_n_n rfl rfl rfl rfl rfl rfl none x ST bcast_S_S100000x600

/-- The sine of the phase matrix, as a function of the matrix product. -/
theorem phase_sin (x : FVec Ideal S100000x8 .f32) (ST : FVec Ideal S8x600 .f32) :
    Host.sin (phase (F := Ideal) x ST) = wave Ideal.sin x ST :=
  hostWave_sin dot_S100000x8_S8x600_S100000x600_1_0_0_1_n_n rfl rfl rfl rfl rfl rfl none x ST bcast_S_S100000x600

/-! ## The six amplitudes -/

/-- The host's amplitude of component 0 is the component's amplitude. -/
theorem amp0_eq (w : FVec Ideal S6 .f32) : amp0 (F := Ideal) w ix0 = amp w 0 := by
  unfold amp0
  exact hostAmp w 0 0x43160000#32 rfl _ _

/-- The host's amplitude of component 1 is the component's amplitude. -/
theorem amp1_eq (w : FVec Ideal S6 .f32) : amp1 (F := Ideal) w ix0 = amp w 1 := by
  unfold amp1
  exact hostAmp w 1 0x42F00000#32 rfl _ _

/-- The host's amplitude of component 2 is the component's amplitude. -/
theorem amp2_eq (w : FVec Ideal S6 .f32) : amp2 (F := Ideal) w ix0 = amp w 2 := by
  unfold amp2
  exact hostAmp w 2 0x42C80000#32 rfl _ _

/-- The host's amplitude of component 3 is the component's amplitude. -/
theorem amp3_eq (w : FVec Ideal S6 .f32) : amp3 (F := Ideal) w ix0 = amp w 3 := by
  unfold amp3
  exact hostAmp w 3 0x42B40000#32 rfl _ _

/-- The host's amplitude of component 4 is the component's amplitude. -/
theorem amp4_eq (w : FVec Ideal S6 .f32) : amp4 (F := Ideal) w ix0 = amp w 4 := by
  unfold amp4
  exact hostAmp w 4 0x42A00000#32 rfl _ _

/-- The host's amplitude of component 5 is the component's amplitude. -/
theorem amp5_eq (w : FVec Ideal S6 .f32) : amp5 (F := Ideal) w ix0 = amp w 5 := by
  unfold amp5
  exact hostAmp w 5 0x42700000#32 rfl _ _

/-! ## The twelve bands -/

/-- The cosine band of component 0: columns 0 … 149 of the cosine features. -/
theorem band0_cos (x : FVec Ideal S100000x8 .f32) (w : FVec Ideal S6 .f32) (ST : FVec Ideal S8x600 .f32) :
    mulf (F := Ideal) (φ := .f32) (broadcastInDim S100000x150 ![] bcast_S_S100000x150 (amp0 (F := Ideal) w))
        (extractStridedSlice S100000x150 ![0, 0] (Host.cos (phase (F := Ideal) x ST)) slices_S100000x600_S100000x150_0_0)
      = extractStridedSlice S100000x150 ![0, 0] (feat Ideal.cos x ST (ampRow w)) slices_S100000x600_S100000x150_0_0 := by
  rw [phase_cos]
  exact hostBand (wave Ideal.cos x ST) (ampRow w) (amp0 (F := Ideal) w) slices_S100000x600_S100000x150_0_0 bcast_S_S100000x150 (by decide)
    (fun s h1 h2 => (ampRow_of_comp w s 0 (comp_band0 (by omega))).trans (amp0_eq w).symm)

/-- The sine band of component 0: columns 0 … 149 of the sine features. -/
theorem band0_sin (x : FVec Ideal S100000x8 .f32) (w : FVec Ideal S6 .f32) (ST : FVec Ideal S8x600 .f32) :
    mulf (F := Ideal) (φ := .f32) (broadcastInDim S100000x150 ![] bcast_S_S100000x150 (amp0 (F := Ideal) w))
        (extractStridedSlice S100000x150 ![0, 0] (Host.sin (phase (F := Ideal) x ST)) slices_S100000x600_S100000x150_0_0)
      = extractStridedSlice S100000x150 ![0, 0] (feat Ideal.sin x ST (ampRow w)) slices_S100000x600_S100000x150_0_0 := by
  rw [phase_sin]
  exact hostBand (wave Ideal.sin x ST) (ampRow w) (amp0 (F := Ideal) w) slices_S100000x600_S100000x150_0_0 bcast_S_S100000x150 (by decide)
    (fun s h1 h2 => (ampRow_of_comp w s 0 (comp_band0 (by omega))).trans (amp0_eq w).symm)

/-- The cosine band of component 1: columns 150 … 269 of the cosine features. -/
theorem band1_cos (x : FVec Ideal S100000x8 .f32) (w : FVec Ideal S6 .f32) (ST : FVec Ideal S8x600 .f32) :
    mulf (F := Ideal) (φ := .f32) (broadcastInDim S100000x120 ![] bcast_S_S100000x120 (amp1 (F := Ideal) w))
        (extractStridedSlice S100000x120 ![0, 150] (Host.cos (phase (F := Ideal) x ST)) slices_S100000x600_S100000x120_0_150)
      = extractStridedSlice S100000x120 ![0, 150] (feat Ideal.cos x ST (ampRow w)) slices_S100000x600_S100000x120_0_150 := by
  rw [phase_cos]
  exact hostBand (wave Ideal.cos x ST) (ampRow w) (amp1 (F := Ideal) w) slices_S100000x600_S100000x120_0_150 bcast_S_S100000x120 (by decide)
    (fun s h1 h2 => (ampRow_of_comp w s 1 (comp_band1 (by omega) (by omega))).trans (amp1_eq w).symm)

/-- The sine band of component 1: columns 150 … 269 of the sine features. -/
theorem band1_sin (x : FVec Ideal S100000x8 .f32) (w : FVec Ideal S6 .f32) (ST : FVec Ideal S8x600 .f32) :
    mulf (F := Ideal) (φ := .f32) (broadcastInDim S100000x120 ![] bcast_S_S100000x120 (amp1 (F := Ideal) w))
        (extractStridedSlice S100000x120 ![0, 150] (Host.sin (phase (F := Ideal) x ST)) slices_S100000x600_S100000x120_0_150)
      = extractStridedSlice S100000x120 ![0, 150] (feat Ideal.sin x ST (ampRow w)) slices_S100000x600_S100000x120_0_150 := by
  rw [phase_sin]
  exact hostBand (wave Ideal.sin x ST) (ampRow w) (amp1 (F := Ideal) w) slices_S100000x600_S100000x120_0_150 bcast_S_S100000x120 (by decide)
    (fun s h1 h2 => (ampRow_of_comp w s 1 (comp_band1 (by omega) (by omega))).trans (amp1_eq w).symm)

/-- The cosine band of component 2: columns 270 … 369 of the cosine features. -/
theorem band2_cos (x : FVec Ideal S100000x8 .f32) (w : FVec Ideal S6 .f32) (ST : FVec Ideal S8x600 .f32) :
    mulf (F := Ideal) (φ := .f32) (broadcastInDim S100000x100 ![] bcast_S_S100000x100 (amp2 (F := Ideal) w))
        (extractStridedSlice S100000x100 ![0, 270] (Host.cos (phase (F := Ideal) x ST)) slices_S100000x600_S100000x100_0_270)
      = extractStridedSlice S100000x100 ![0, 270] (feat Ideal.cos x ST (ampRow w)) slices_S100000x600_S100000x100_0_270 := by
  rw [phase_cos]
  exact hostBand (wave Ideal.cos x ST) (ampRow w) (amp2 (F := Ideal) w) slices_S100000x600_S100000x100_0_270 bcast_S_S100000x100 (by decide)
    (fun s h1 h2 => (ampRow_of_comp w s 2 (comp_band2 (by omega) (by omega))).trans (amp2_eq w).symm)

/-- The sine band of component 2: columns 270 … 369 of the sine features. -/
theorem band2_sin (x : FVec Ideal S100000x8 .f32) (w : FVec Ideal S6 .f32) (ST : FVec Ideal S8x600 .f32) :
    mulf (F := Ideal) (φ := .f32) (broadcastInDim S100000x100 ![] bcast_S_S100000x100 (amp2 (F := Ideal) w))
        (extractStridedSlice S100000x100 ![0, 270] (Host.sin (phase (F := Ideal) x ST)) slices_S100000x600_S100000x100_0_270)
      = extractStridedSlice S100000x100 ![0, 270] (feat Ideal.sin x ST (ampRow w)) slices_S100000x600_S100000x100_0_270 := by
  rw [phase_sin]
  exact hostBand (wave Ideal.sin x ST) (ampRow w) (amp2 (F := Ideal) w) slices_S100000x600_S100000x100_0_270 bcast_S_S100000x100 (by decide)
    (fun s h1 h2 => (ampRow_of_comp w s 2 (comp_band2 (by omega) (by omega))).trans (amp2_eq w).symm)

/-- The cosine band of component 3: columns 370 … 459 of the cosine features. -/
theorem band3_cos (x : FVec Ideal S100000x8 .f32) (w : FVec Ideal S6 .f32) (ST : FVec Ideal S8x600 .f32) :
    mulf (F := Ideal) (φ := .f32) (broadcastInDim S100000x90 ![] bcast_S_S100000x90 (amp3 (F := Ideal) w))
        (extractStridedSlice S100000x90 ![0, 370] (Host.cos (phase (F := Ideal) x ST)) slices_S100000x600_S100000x90_0_370)
      = extractStridedSlice S100000x90 ![0, 370] (feat Ideal.cos x ST (ampRow w)) slices_S100000x600_S100000x90_0_370 := by
  rw [phase_cos]
  exact hostBand (wave Ideal.cos x ST) (ampRow w) (amp3 (F := Ideal) w) slices_S100000x600_S100000x90_0_370 bcast_S_S100000x90 (by decide)
    (fun s h1 h2 => (ampRow_of_comp w s 3 (comp_band3 (by omega) (by omega))).trans (amp3_eq w).symm)

/-- The sine band of component 3: columns 370 … 459 of the sine features. -/
theorem band3_sin (x : FVec Ideal S100000x8 .f32) (w : FVec Ideal S6 .f32) (ST : FVec Ideal S8x600 .f32) :
    mulf (F := Ideal) (φ := .f32) (broadcastInDim S100000x90 ![] bcast_S_S100000x90 (amp3 (F := Ideal) w))
        (extractStridedSlice S100000x90 ![0, 370] (Host.sin (phase (F := Ideal) x ST)) slices_S100000x600_S100000x90_0_370)
      = extractStridedSlice S100000x90 ![0, 370] (feat Ideal.sin x ST (ampRow w)) slices_S100000x600_S100000x90_0_370 := by
  rw [phase_sin]
  exact hostBand (wave Ideal.sin x ST) (ampRow w) (amp3 (F := Ideal) w) slices_S100000x600_S100000x90_0_370 bcast_S_S100000x90 (by decide)
    (fun s h1 h2 => (ampRow_of_comp w s 3 (comp_band3 (by omega) (by omega))).trans (amp3_eq w).symm)

/-- The cosine band of component 4: columns 460 … 539 of the cosine features. -/
theorem band4_cos (x : FVec Ideal S100000x8 .f32) (w : FVec Ideal S6 .f32) (ST : FVec Ideal S8x600 .f32) :
    mulf (F := Ideal) (φ := .f32) (broadcastInDim S100000x80 ![] bcast_S_S100000x80 (amp4 (F := Ideal) w))
        (extractStridedSlice S100000x80 ![0, 460] (Host.cos (phase (F := Ideal) x ST)) slices_S100000x600_S100000x80_0_460)
      = extractStridedSlice S100000x80 ![0, 460] (feat Ideal.cos x ST (ampRow w)) slices_S100000x600_S100000x80_0_460 := by
  rw [phase_cos]
  exact hostBand (wave Ideal.cos x ST) (ampRow w) (amp4 (F := Ideal) w) slices_S100000x600_S100000x80_0_460 bcast_S_S100000x80 (by decide)
    (fun s h1 h2 => (ampRow_of_comp w s 4 (comp_band4 (by omega) (by omega))).trans (amp4_eq w).symm)

/-- The sine band of component 4: columns 460 … 539 of the sine features. -/
theorem band4_sin (x : FVec Ideal S100000x8 .f32) (w : FVec Ideal S6 .f32) (ST : FVec Ideal S8x600 .f32) :
    mulf (F := Ideal) (φ := .f32) (broadcastInDim S100000x80 ![] bcast_S_S100000x80 (amp4 (F := Ideal) w))
        (extractStridedSlice S100000x80 ![0, 460] (Host.sin (phase (F := Ideal) x ST)) slices_S100000x600_S100000x80_0_460)
      = extractStridedSlice S100000x80 ![0, 460] (feat Ideal.sin x ST (ampRow w)) slices_S100000x600_S100000x80_0_460 := by
  rw [phase_sin]
  exact hostBand (wave Ideal.sin x ST) (ampRow w) (amp4 (F := Ideal) w) slices_S100000x600_S100000x80_0_460 bcast_S_S100000x80 (by decide)
    (fun s h1 h2 => (ampRow_of_comp w s 4 (comp_band4 (by omega) (by omega))).trans (amp4_eq w).symm)

/-- The cosine band of component 5: columns 540 … 599 of the cosine features. -/
theorem band5_cos (x : FVec Ideal S100000x8 .f32) (w : FVec Ideal S6 .f32) (ST : FVec Ideal S8x600 .f32) :
    mulf (F := Ideal) (φ := .f32) (broadcastInDim S100000x60 ![] bcast_S_S100000x60 (amp5 (F := Ideal) w))
        (extractStridedSlice S100000x60 ![0, 540] (Host.cos (phase (F := Ideal) x ST)) slices_S100000x600_S100000x60_0_540)
      = extractStridedSlice S100000x60 ![0, 540] (feat Ideal.cos x ST (ampRow w)) slices_S100000x600_S100000x60_0_540 := by
  rw [phase_cos]
  exact hostBand (wave Ideal.cos x ST) (ampRow w) (amp5 (F := Ideal) w) slices_S100000x600_S100000x60_0_540 bcast_S_S100000x60 (by decide)
    (fun s h1 h2 => (ampRow_of_comp w s 5 (comp_band5 (by omega))).trans (amp5_eq w).symm)

/-- The sine band of component 5: columns 540 … 599 of the sine features. -/
theorem band5_sin (x : FVec Ideal S100000x8 .f32) (w : FVec Ideal S6 .f32) (ST : FVec Ideal S8x600 .f32) :
    mulf (F := Ideal) (φ := .f32) (broadcastInDim S100000x60 ![] bcast_S_S100000x60 (amp5 (F := Ideal) w))
        (extractStridedSlice S100000x60 ![0, 540] (Host.sin (phase (F := Ideal) x ST)) slices_S100000x600_S100000x60_0_540)
      = extractStridedSlice S100000x60 ![0, 540] (feat Ideal.sin x ST (ampRow w)) slices_S100000x600_S100000x60_0_540 := by
  rw [phase_sin]
  exact hostBand (wave Ideal.sin x ST) (ampRow w) (amp5 (F := Ideal) w) slices_S100000x600_S100000x60_0_540 bcast_S_S100000x60 (by decide)
    (fun s h1 h2 => (ampRow_of_comp w s 5 (comp_band5 (by omega))).trans (amp5_eq w).symm)

/-! ## The result -/

set_option maxHeartbeats 4000000 in
/-- The program's result on the extended reals is the interleaving of the cosine features and the sine features of the
    inputs at the spectral points, every column scaled by its sample's amplitude. -/
theorem refOut_eq (x : FVec Ideal S100000x8 .f32) (w : FVec Ideal S6 .f32) (mu sd : FVec Ideal S6x8 .f32) (ep : FVec Ideal S600x8 .f32) :
    refOut (F := Ideal) x w mu sd ep
      = interleave (feat Ideal.cos x (specT (F := Ideal) mu sd ep) (ampRow w)) (feat Ideal.sin x (specT (F := Ideal) mu sd ep) (ampRow w)) := by
  unfold refOut
  rw [band0_cos, band0_sin, band1_cos, band1_sin, band2_cos, band2_sin, band3_cos, band3_sin, band4_cos, band4_sin, band5_cos, band5_sin]
  exact concat_bands _ _ _ _ _ _ _ _ _

end Cert.ReferenceIdeal.RefValue

end
-- ==== Proof.Bridge.lean ====
/-
  The two programs compute the same transposed spectral points.

  Both gather the means' and the deviations' rows at the same table of components, multiply the deviations' rows by the
  noise, add and transpose: the two terms differ only in which program's copy of the table they name, and the copies are
  one table.
-/
import proofs.«164334_j51230369907346_2_alg».proof.Proof.KHost
import proofs.«164334_j51230369907346_2_alg».proof.Proof.RefRun
import proofs.«164334_j51230369907346_2_alg».proof.Proof.Tables

noncomputable section

namespace Cert.Bridge

open Idealize.ShloMosaic

/-- The start-index columns of the two programs are one column. -/
theorem idxCol_eq : Cert.KernelIdeal.Hand.kIdxCol = Cert.ReferenceIdeal.RefRun.idxCol := by
  unfold Cert.KernelIdeal.Hand.kIdxCol Cert.ReferenceIdeal.RefRun.idxCol
  have h : Cert.ReferenceIdeal.lit0 = Cert.KernelIdeal.lit0 := funext Cert.Tables.lit0_eq
  rw [h]

/-- So are the transposed spectral points, as functions of the means, the deviations and the noise. -/
theorem specT_eq (mu sd : FVec Ideal Cert.KernelIdeal.S6x8 .f32) (ep : FVec Ideal Cert.KernelIdeal.S600x8 .f32) :
    Cert.KernelIdeal.Hand.kSpecT mu sd ep = Cert.ReferenceIdeal.RefRun.specT (F := Ideal) mu sd ep := by
  unfold Cert.KernelIdeal.Hand.kSpecT Cert.ReferenceIdeal.RefRun.specT
  rw [idxCol_eq]
  rfl

end Cert.Bridge

end
-- ==== Proof.lean ====
/-
  Random Fourier features of a spectral mixture: a kernel that writes, for 100000 inputs of 8 coordinates and 600 spectral
  samples in six components, the 1200 columns `[cos, sin]` per component, against the plain array program.

  Both programs form the spectral points (a component's mean plus its deviation times the noise, one point per sample)
  and the phase `2π · x · spectralᵀ`. The kernel scales the cosine and the sine of the phase by a ROW of amplitudes — the
  square root of weight over sample count, gathered at each sample's component — and lays the six components' column
  bands side by side, 2000 input rows per grid point. The reference scales each band by its component's one amplitude.
  On the extended reals the two agree entry by entry: the matrix products are the same sums, the amplitude row is the
  component's amplitude on the component's band (a fact about the constant table of components), and the product of two
  extended reals commutes. No finiteness is used. The idealization rewrote nothing, so `preserves` is `True`.
-/
import proofs.«164334_j51230369907346_2_alg».proof.Defs
import proofs.«164334_j51230369907346_2_alg».proof.Proof.Gen.Kernel
import proofs.«164334_j51230369907346_2_alg».proof.Proof.Gen.Kernel.Skeleton
import proofs.«164334_j51230369907346_2_alg».proof.Proof.Gen.Kernel.Launch
import proofs.«164334_j51230369907346_2_alg».proof.Proof.Gen.Kernel.Points
import proofs.«164334_j51230369907346_2_alg».proof.Proof.Gen.Kernel.Frame
import proofs.«164334_j51230369907346_2_alg».proof.Proof.Gen.KernelIdeal
import proofs.«164334_j51230369907346_2_alg».proof.Proof.Gen.KernelIdeal.Skeleton
import proofs.«164334_j51230369907346_2_alg».proof.Proof.Gen.KernelIdeal.Launch
import proofs.«164334_j51230369907346_2_alg».proof.Proof.Gen.KernelIdeal.Points
import proofs.«164334_j51230369907346_2_alg».proof.Proof.Gen.KernelIdeal.Frame
import proofs.«164334_j51230369907346_2_alg».proof.Proof.Gen.KernelIdeal.Value
import proofs.«164334_j51230369907346_2_alg».proof.Proof.Gen.ReferenceIdeal
import proofs.«164334_j51230369907346_2_alg».proof.Proof.Gen.Pre_finite_inputs
import proofs.«164334_j51230369907346_2_alg».proof.Proof.KValue
import proofs.«164334_j51230369907346_2_alg».proof.Proof.RefRun
import proofs.«164334_j51230369907346_2_alg».proof.Proof.RefValue
import proofs.«164334_j51230369907346_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end with the result at the specification's function of the arguments: the kernel's array block by block,
    the reference's by its operations read as the interleaved feature array, over the same spectral points. -/
theorem algebraic : Cert.algebraic_KernelIdeal_ReferenceIdeal := by
  intro m ρ m' ρ' _ hagree
  refine ⟨fun c => Cert.KernelIdeal.Hand.spec m c, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2,
    Cert.ReferenceIdeal.RefValue.refOut_eq, ← Cert.Bridge.specT_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
